-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S100000 : Shape := ⟨1, ![100000]⟩
abbrev S147x300 : Shape := ⟨2, ![147, 300]⟩
abbrev S300 : Shape := ⟨1, ![300]⟩
abbrev S300x300 : Shape := ⟨2, ![300, 300]⟩
abbrev S433x300 : Shape := ⟨2, ![433, 300]⟩
abbrev S_ : Shape := ⟨0, ![]⟩

class Facts : Prop where
  bcast_S_S100000x133 : S_.BroadcastsInDim S100000x133 (![] : Fin 0 → Fin S100000x133.rank)
  reducesTo_S100000x133_S_d0_1 : S100000x133.ReducesTo [0, 1] S_
  h_S_ : 0 < S_.numel
  bcast_S_S200000x147 : S_.BroadcastsInDim S200000x147 (![] : Fin 0 → Fin S200000x147.rank)
  reducesTo_S200000x147_S_d0_1 : S200000x147.ReducesTo [0, 1] S_
  bcast_S_S147x300 : S_.BroadcastsInDim S147x300 (![] : Fin 0 → Fin S147x300.rank)
  reducesTo_S147x300_S_d0_1 : S147x300.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_
  bcast_S_S433x300 : S_.BroadcastsInDim S433x300 (![] : Fin 0 → Fin S433x300.rank)
  reducesTo_S433x300_S_d0_1 : S433x300.ReducesTo [0, 1] S_

variable [Facts]

def fn_part2 {F : FTy → Type} [FloatOps F] (main_arg11 : FVec F S300 .f32) (main_v33 : IVec S_ 1) : IVec S_ 1 :=
  let main_v34 : FVec F S300 .f32 := Host.absf main_arg11
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  main_v38

def fn_part1 {F : FTy → Type} [FloatOps F] (main_arg8 : FVec F S300x300 .f32) (main_arg9 : FVec F S300 .f32) (main_arg10 : FVec F S433x300 .f32) (main_arg11 : FVec F S300 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x300 .f32 := Host.absf main_arg8
  let main_cst_6 : FVec F S_ .f32 := constant S_ .f32 0x7F800000#32
  let main_v20 : FVec F S300x300 .f32 := broadcastInDim S300x300 ![] bcast_S_S300x300 main_cst_6
  let main_v21 : IVec S300x300 1 := cmpf .olt main_v19 main_v20
  let main_c_7 : IVec S_ 1 := constantI S_ 1 1#1
  let main_v22 : IVec S_ 1 := (fun x v => Host.reduce IntOp.andi x v reducesTo_S300x300_S_d0_1 h_S_) main_v21 main_c_7
  let main_v23 : IVec S_ 1 := andi main_v18 main_v22
  let main_v24 : FVec F S300 .f32 := Host.absf main_arg9
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S433x300 .f32 := Host.absf main_arg10
  let main_cst_10 : FVec F S_ .f32 := constant S_ .f32 0x7F800000#32
  let main_v30 : FVec F S433x300 .f32 := broadcastInDim S433x300 ![] bcast_S_S433x300 main_cst_10
  let main_v31 : IVec S433x300 1 := cmpf .olt main_v29 main_v30
  let main_c_11 : IVec S_ 1 := constantI S_ 1 1#1
  let main_v32 : IVec S_ 1 := (fun x v => Host.reduce IntOp.andi x v reducesTo_S433x300_S_d0_1 h_S_) main_v31 main_c_11
  let main_v33 : IVec S_ 1 := andi main_v28 main_v32
  fn_part2 (F := F) main_arg11 main_v33

def fn {F : FTy → Type} [FloatOps F] (main_arg0 : FVec F S100000x133 .f32) (main_arg1 : FVec F S200000x147 .f32) (main_arg2 : IVec S100000x6 32) (main_arg3 : IVec S200000 32) (main_arg4 : IVec S200000 32) (main_arg5 : IVec S100000 32) (main_arg6 : FVec F S147x300 .f32) (main_arg7 : FVec F S300 .f32) (main_arg8 : FVec F S300x300 .f32) (main_arg9 : FVec F S300 .f32) (main_arg10 : FVec F S433x300 .f32) (main_arg11 : FVec F S300 .f32) : IVec S_ 1 :=
  let main_v0 : FVec F S100000x133 .f32 := Host.absf main_arg0
  let main_cst : FVec F S_ .f32 := constant S_ .f32 0x7F800000#32
  let main_v1 : FVec F S100000x133 .f32 := broadcastInDim S100000x133 ![] bcast_S_S100000x133 main_cst
  let main_v2 : IVec S100000x133 1 := cmpf .olt main_v0 main_v1
  let main_c : IVec S_ 1 := constantI S_ 1 1#1
  let main_v3 : IVec S_ 1 := (fun x v => Host.reduce IntOp.andi x v reducesTo_S100000x133_S_d0_1 h_S_) main_v2 main_c
  let main_v4 : FVec F S200000x147 .f32 := Host.absf main_arg1
  let main_cst_0 : FVec F S_ .f32 := constant S_ .f32 0x7F800000#32
  let main_v5 : FVec F S200000x147 .f32 := broadcastInDim S200000x147 ![] bcast_S_S200000x147 main_cst_0
  let main_v6 : IVec S200000x147 1 := cmpf .olt main_v4 main_v5
  let main_c_1 : IVec S_ 1 := constantI S_ 1 1#1
  let main_v7 : IVec S_ 1 := (fun x v => Host.reduce IntOp.andi x v reducesTo_S200000x147_S_d0_1 h_S_) main_v6 main_c_1
  let main_v8 : IVec S_ 1 := andi main_v3 main_v7
  let main_v9 : FVec F S147x300 .f32 := Host.absf main_arg6
  let main_cst_2 : FVec F S_ .f32 := constant S_ .f32 0x7F800000#32
  let main_v10 : FVec F S147x300 .f32 := broadcastInDim S147x300 ![] bcast_S_S147x300 main_cst_2
  let main_v11 : IVec S147x300 1 := cmpf .olt main_v9 main_v10
  let main_c_3 : IVec S_ 1 := constantI S_ 1 1#1
  let main_v12 : IVec S_ 1 := (fun x v => Host.reduce IntOp.andi x v reducesTo_S147x300_S_d0_1 h_S_) main_v11 main_c_3
  let main_v13 : IVec S_ 1 := andi main_v8 main_v12
  let main_v14 : FVec F S300 .f32 := Host.absf main_arg7
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg8 main_arg9 main_arg10 main_arg11 main_v13 main_v16
-- ==== Kernel.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S100000 : Shape := ⟨1, ![100000]⟩
abbrev S147x300 : Shape := ⟨2, ![147, 300]⟩
abbrev S300 : Shape := ⟨1, ![300]⟩
abbrev S300x300 : Shape := ⟨2, ![300, 300]⟩
abbrev S433x300 : Shape := ⟨2, ![433, 300]⟩
abbrev S1x300 : Shape := ⟨2, ![1, 300]⟩
abbrev S200000x300 : Shape := ⟨2, ![200000, 300]⟩
abbrev S2000x147 : Shape := ⟨2, ![2000, 147]⟩
abbrev S2000x300 : Shape := ⟨2, ![2000, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S133x300 : Shape := ⟨2, ![133, 300]⟩
abbrev S2000x133 : Shape := ⟨2, ![2000, 133]⟩
abbrev S4096x300 : Shape := ⟨2, ![4096, 300]⟩
abbrev S100000x1 : Shape := ⟨2, ![100000, 1]⟩
abbrev S4096 : Shape := ⟨1, ![4096]⟩
abbrev S4096x1 : Shape := ⟨2, ![4096, 1]⟩

abbrev nBuf : Space → Nat
  | .hbm => 142
  | .vmem => 31
  | .smem => 0
  | _ => 0

abbrev hbmTy0_0 (i : Nat) : BufTy := match i % 128 with
  | 0 => ⟨S100000x133, .f32⟩
  | 1 => ⟨S200000x147, .f32⟩
  | 2 => ⟨S100000x6, .i32⟩
  | 3 => ⟨S200000, .i32⟩
  | 4 => ⟨S200000, .i32⟩
  | 5 => ⟨S100000, .i32⟩
  | 6 => ⟨S147x300, .f32⟩
  | 7 => ⟨S300, .f32⟩
  | 8 => ⟨S300x300, .f32⟩
  | 9 => ⟨S300, .f32⟩
  | 10 => ⟨S433x300, .f32⟩
  | 11 => ⟨S300, .f32⟩
  | 12 => ⟨S1x300, .f32⟩
  | 13 => ⟨S200000x300, .bf16⟩
  | 14 => ⟨S_, .i32⟩
  | 15 => ⟨S100000x6, .i32⟩
  | 16 => ⟨S100000x6, .i1⟩
  | 17 => ⟨S_, .i32⟩
  | 18 => ⟨S100000x6, .i32⟩
  | 19 => ⟨S100000x6, .i32⟩
  | 20 => ⟨S100000x6, .i32⟩
  | 21 => ⟨S100000x6x1, .i32⟩
  | 22 => ⟨S100000x6x300, .bf16⟩
  | 23 => ⟨S100000x6x300, .f32⟩
  | 24 => ⟨S_, .f32⟩
  | 25 => ⟨S100000x6x300, .f32⟩
  | 26 => ⟨S100000x6x300, .f32⟩
  | 27 => ⟨S_, .f32⟩
  | 28 => ⟨S100000x300, .f32⟩
  | 29 => ⟨S_, .i32⟩
  | 30 => ⟨S200000, .i32⟩
  | 31 => ⟨S200000, .i1⟩
  | 32 => ⟨S_, .i32⟩
  | 33 => ⟨S200000, .i32⟩
  | 34 => ⟨S200000, .i32⟩
  | 35 => ⟨S200000, .i32⟩
  | 36 => ⟨S200000x1, .i32⟩
  | 37 => ⟨S200000x300, .bf16⟩
  | 38 => ⟨S200000x300, .f32⟩
  | 39 => ⟨S_, .f32⟩
  | 40 => ⟨S200000x300, .f32⟩
  | 41 => ⟨S200000x300, .f32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x300, .f32⟩
  | 51 => ⟨S200000x300, .f32⟩
  | 52 => ⟨S200000x300, .bf16⟩
  | 53 => ⟨S1x300, .f32⟩
  | 54 => ⟨S200000x300, .bf16⟩
  | 55 => ⟨S_, .i32⟩
  | 56 => ⟨S100000x6, .i32⟩
  | 57 => ⟨S100000x6, .i1⟩
  | 58 => ⟨S_, .i32⟩
  | 59 => ⟨S100000x6, .i32⟩
  | 60 => ⟨S100000x6, .i32⟩
  | 61 => ⟨S100000x6, .i32⟩
  | 62 => ⟨S100000x6x1, .i32⟩
  | 63 => ⟨S100000x6x300, .bf16⟩
  | 64 => ⟨S100000x6x300, .f32⟩
  | 65 => ⟨S_, .f32⟩
  | 66 => ⟨S100000x6x300, .f32⟩
  | 67 => ⟨S100000x6x300, .f32⟩
  | 68 => ⟨S_, .f32⟩
  | 69 => ⟨S100000x300, .f32⟩
  | 70 => ⟨S_, .i32⟩
  | 71 => ⟨S200000, .i32⟩
  | 72 => ⟨S200000, .i1⟩
  | 73 => ⟨S_, .i32⟩
  | 74 => ⟨S200000, .i32⟩
  | 75 => ⟨S200000, .i32⟩
  | 76 => ⟨S200000, .i32⟩
  | 77 => ⟨S200000x1, .i32⟩
  | 78 => ⟨S200000x300, .bf16⟩
  | 79 => ⟨S200000x300, .f32⟩
  | 80 => ⟨S_, .f32⟩
  | 81 => ⟨S200000x300, .f32⟩
  | 82 => ⟨S200000x300, .f32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S200000x300, .f32⟩
  | 92 => ⟨S200000x300, .f32⟩
  | 93 => ⟨S200000x300, .bf16⟩
  | 94 => ⟨S1x300, .f32⟩
  | 95 => ⟨S200000x300, .bf16⟩
  | 96 => ⟨S_, .i32⟩
  | 97 => ⟨S100000x6, .i32⟩
  | 98 => ⟨S100000x6, .i1⟩
  | 99 => ⟨S_, .i32⟩
  | 100 => ⟨S100000x6, .i32⟩
  | 101 => ⟨S100000x6, .i32⟩
  | 102 => ⟨S100000x6, .i32⟩
  | 103 => ⟨S100000x6x1, .i32⟩
  | 104 => ⟨S100000x6x300, .bf16⟩
  | 105 => ⟨S100000x6x300, .f32⟩
  | 106 => ⟨S_, .f32⟩
  | 107 => ⟨S100000x6x300, .f32⟩
  | 108 => ⟨S100000x6x300, .f32⟩
  | 109 => ⟨S_, .f32⟩
  | 110 => ⟨S100000x300, .f32⟩
  | 111 => ⟨S100000x300, .bf16⟩
  | 112 => ⟨S133x300, .f32⟩
  | 113 => ⟨S300x300, .f32⟩
  | 114 => ⟨S1x300, .f32⟩
  | 115 => ⟨S100000x300, .bf16⟩
  | 116 => ⟨S100000x300, .f32⟩
  | 117 => ⟨S_, .f32⟩
  | 118 => ⟨S4096x300, .f32⟩
  | 119 => ⟨S100000x1, .i32⟩
  | 120 => ⟨S4096x300, .f32⟩
  | 121 => ⟨S_, .f32⟩
  | 122 => ⟨S100000, .f32⟩
  | 123 => ⟨S_, .f32⟩
  | 124 => ⟨S4096, .f32⟩
  | 125 => ⟨S100000x1, .i32⟩
  | 126 => ⟨S4096, .f32⟩
  | 127 => ⟨S4096x1, .f32⟩
  | _ => ⟨S100000x133, .f32⟩

abbrev hbmTy0_1 (i : Nat) : BufTy := match i % 128 with
  | 0 => ⟨S_, .f32⟩
  | 1 => ⟨S4096x1, .f32⟩
  | 2 => ⟨S4096x1, .i1⟩
  | 3 => ⟨S_, .f32⟩
  | 4 => ⟨S4096, .f32⟩
  | 5 => ⟨S4096, .f32⟩
  | 6 => ⟨S4096x1, .f32⟩
  | 7 => ⟨S4096x300, .f32⟩
  | 8 => ⟨S4096x300, .f32⟩
  | 9 => ⟨S_, .f32⟩
  | 10 => ⟨S_, .f32⟩
  | 11 => ⟨S4096x300, .i1⟩
  | 12 => ⟨S4096x300, .f32⟩
  | 13 => ⟨S4096x300, .f32⟩
  | _ => ⟨S100000x133, .f32⟩

abbrev hbmTy (i : Nat) : BufTy := match i / 128 with
  | 0 => hbmTy0_0 i
  | 1 => hbmTy0_1 i
  | _ => ⟨S100000x133, .f32⟩

abbrev bufTy : (tb : Table) → Fin (tcTables nBuf tb) → BufTy
  | .hbm, ⟨i, _⟩ => hbmTy i
  | .local _ .vmem, ⟨0, _⟩ => ⟨S2000x147, .f32⟩
  | .local _ .vmem, ⟨1, _⟩ => ⟨S2000x147, .f32⟩
  | .local _ .vmem, ⟨2, _⟩ => ⟨S147x300, .f32⟩
  | .local _ .vmem, ⟨3, _⟩ => ⟨S1x300, .f32⟩
  | .local _ .vmem, ⟨4, _⟩ => ⟨S2000x300, .bf16⟩
  | .local _ .vmem, ⟨5, _⟩ => ⟨S2000x300, .bf16⟩
  | .local _ .vmem, ⟨6, _⟩ => ⟨S2000x300, .bf16⟩
  | .local _ .vmem, ⟨7, _⟩ => ⟨S2000x300, .bf16⟩
  | .local _ .vmem, ⟨8, _⟩ => ⟨S2000x300, .bf16⟩
  | .local _ .vmem, ⟨9, _⟩ => ⟨S2000x300, .bf16⟩
  | .local _ .vmem, ⟨10, _⟩ => ⟨S300x300, .f32⟩
  | .local _ .vmem, ⟨11, _⟩ => ⟨S1x300, .f32⟩
  | .local _ .vmem, ⟨12, _⟩ => ⟨S2000x300, .bf16⟩
  | .local _ .vmem, ⟨13, _⟩ => ⟨S2000x300, .bf16⟩
  | .local _ .vmem, ⟨14, _⟩ => ⟨S2000x300, .bf16⟩
  | .local _ .vmem, ⟨15, _⟩ => ⟨S2000x300, .bf16⟩
  | .local _ .vmem, ⟨16, _⟩ => ⟨S2000x300, .bf16⟩
  | .local _ .vmem, ⟨17, _⟩ => ⟨S2000x300, .bf16⟩
  | .local _ .vmem, ⟨18, _⟩ => ⟨S300x300, .f32⟩
  | .local _ .vmem, ⟨19, _⟩ => ⟨S1x300, .f32⟩
  | .local _ .vmem, ⟨20, _⟩ => ⟨S2000x300, .bf16⟩
  | .local _ .vmem, ⟨21, _⟩ => ⟨S2000x300, .bf16⟩
  | .local _ .vmem, ⟨22, _⟩ => ⟨S2000x133, .f32⟩
  | .local _ .vmem, ⟨23, _⟩ => ⟨S2000x133, .f32⟩
  | .local _ .vmem, ⟨24, _⟩ => ⟨S2000x300, .bf16⟩
  | .local _ .vmem, ⟨25, _⟩ => ⟨S2000x300, .bf16⟩
  | .local _ .vmem, ⟨26, _⟩ => ⟨S133x300, .f32⟩
  | .local _ .vmem, ⟨27, _⟩ => ⟨S300x300, .f32⟩
  | .local _ .vmem, ⟨28, _⟩ => ⟨S1x300, .f32⟩
  | .local _ .vmem, ⟨29, _⟩ => ⟨S2000x300, .bf16⟩
  | .local _ .vmem, ⟨30, _⟩ => ⟨S2000x300, .bf16⟩
  | _, _ => ⟨S100000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call0_cst : Ref sig .tc := ⟨.hbm, 24, rfl⟩
abbrev main_call0_v0 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_cst : Ref sig .tc := ⟨.hbm, 39, rfl⟩
abbrev main_call1_v0 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call2_cst : Ref sig .tc := ⟨.hbm, 65, rfl⟩
abbrev main_call2_v0 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_c_8 : Ref sig .tc := ⟨.hbm, 70, rfl⟩
abbrev main_v42 : Ref sig .tc := ⟨.hbm, 71, rfl⟩
abbrev main_v43 : Ref sig .tc := ⟨.hbm, 72, rfl⟩
abbrev main_c_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call3_cst : Ref sig .tc := ⟨.hbm, 80, rfl⟩
abbrev main_call3_v0 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_c_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_12 : Ref sig .tc := ⟨.hbm, 96, rfl⟩
abbrev main_v62 : Ref sig .tc := ⟨.hbm, 97, rfl⟩
abbrev main_v63 : Ref sig .tc := ⟨.hbm, 98, rfl⟩
abbrev main_c_13 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_call4_cst : Ref sig .tc := ⟨.hbm, 106, rfl⟩
abbrev main_call4_v0 : Ref sig .tc := ⟨.hbm, 107, rfl⟩
abbrev main_v70 : Ref sig .tc := ⟨.hbm, 108, rfl⟩
abbrev main_cst_14 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_15 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_16 : Ref sig .tc := ⟨.hbm, 121, rfl⟩
abbrev main_v81 : Ref sig .tc := ⟨.hbm, 122, rfl⟩
abbrev main_cst_17 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_18 : Ref sig .tc := ⟨.hbm, 128, rfl⟩
abbrev main_v86 : Ref sig .tc := ⟨.hbm, 129, rfl⟩
abbrev main_v87 : Ref sig .tc := ⟨.hbm, 130, rfl⟩
abbrev main_cst_19 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_20 : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_v93 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem5_1 : DmaSem sig := 30

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x300 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x300 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x300 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x300 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x300 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S300x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x300 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x300 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x300 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S133x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S300x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x300 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x300 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S300_S1x300 : S300.ShapeCasts S1x300
  inb_S2000x147_S2000x147_0_0 : ∀ a, (![0, 0] : Fin 2 → Nat) a + S2000x147.size a ≤ S2000x147.size a
  h_S2000x147 : 0 < S2000x147.numel
  bitsLt_bf16_f32 : FTy.bits .bf16 < FTy.bits .f32
  inb_S147x300_S147x300_0_0 : ∀ a, (![0, 0] : Fin 2 → Nat) a + S147x300.size a ≤ S147x300.size a
  h_S147x300 : 0 < S147x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  inb_S2000x300_S2000x300_0_0 : ∀ a, (![0, 0] : Fin 2 → Nat) a + S2000x300.size a ≤ S2000x300.size a
  h_S2000x300 : 0 < S2000x300.numel
  packedbf16_S2000x300_S2000x300_0_0 : (Rect.unit (s := S2000x300) ![0, 0] S2000x300.size inb_S2000x300_S2000x300_0_0).PackedRows (EltTy.packing .bf16)
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  bcast_S_S100000x6x300 : S_.BroadcastsInDim S100000x6x300 (![] : Fin 0 → Fin S100000x6x300.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  bcast_S_S200000x300 : S_.BroadcastsInDim S200000x300 (![] : Fin 0 → Fin S200000x300.rank)
  shapeCasts_S2000x300_S2000x300 : S2000x300.ShapeCasts S2000x300
  inb_S300x300_S300x300_0_0 : ∀ a, (![0, 0] : Fin 2 → Nat) a + S300x300.size a ≤ S300x300.size a
  h_S300x300 : 0 < S300x300.numel
  slices_S433x300_S133x300_0_0 : S433x300.Slices ![0, 0] S133x300
  slices_S433x300_S300x300_133_0 : S433x300.Slices ![133, 0] S300x300
  inb_S2000x133_S2000x133_0_0 : ∀ a, (![0, 0] : Fin 2 → Nat) a + S2000x133.size a ≤ S2000x133.size a
  h_S2000x133 : 0 < S2000x133.numel
  inb_S133x300_S133x300_0_0 : ∀ a, (![0, 0] : Fin 2 → Nat) a + S133x300.size a ≤ S133x300.size a
  h_S133x300 : 0 < S133x300.numel
  shapeCasts_S133x300_S133x300 : S133x300.ShapeCasts S133x300
  shapeCasts_S300x300_S300x300 : S300x300.ShapeCasts S300x300
  bcast_S_S4096x300 : S_.BroadcastsInDim S4096x300 (![] : Fin 0 → Fin S4096x300.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x300_0_1 : S4096x1.BroadcastsInDim S4096x300 (![0, 1] : Fin 2 → Fin S4096x300.rank)
  dot_S2000x147_S147x300_S2000x300_1_0_0_1_n_n_wf : DotDims.WF S2000x147 S147x300 S2000x300 [1] [0] [0] [1] [] []
  gather_S200000x300_S100000x6x1_S100000x6x300_2_0_n_n_0_2_1300_wf : GatherDims.WF S200000x300 S100000x6x1 S100000x6x300 [2] [0] [] [0] [] 2 ![1, 300]
  gather_S200000x300_S200000x1_S200000x300_1_0_n_n_0_1_1300_wf : GatherDims.WF S200000x300 S200000x1 S200000x300 [1] [0] [] [0] [] 1 ![1, 300]
  gather_S100000x300_S200000x1_S200000x300_1_0_n_n_0_1_1300_wf : GatherDims.WF S100000x300 S200000x1 S200000x300 [1] [0] [] [0] [] 1 ![1, 300]
  dot_S2000x300_S300x300_S2000x300_1_0_0_1_n_n_wf : DotDims.WF S2000x300 S300x300 S2000x300 [1] [0] [0] [1] [] []
  dot_S2000x133_S133x300_S2000x300_1_0_0_1_n_n_wf : DotDims.WF S2000x133 S133x300 S2000x300 [1] [0] [0] [1] [] []
  scatter_S4096x300_S100000x1_S100000x300_1_0_0_1_wf : ScatterDims.WF S4096x300 S100000x1 S100000x300 [1] [0] [0] 1
  scatter_S4096_S100000x1_S100000_n_0_0_1_wf : ScatterDims.WF S4096 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x147.size a ≤ S200000x147.size a
  hwx0_0 : ∀ i : grid0.Coords, EltTy.bits .f32 = 32 ∨ (Rect.block (s := S200000x147) S2000x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x300.size a ≤ S147x300.size a
  hwx0_1 : ∀ i : grid0.Coords, EltTy.bits .f32 = 32 ∨ (Rect.block (s := S147x300) S147x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x300.size a ≤ S200000x300.size a
  hwx0_3 : ∀ i : grid0.Coords, EltTy.bits .bf16 = 32 ∨ (Rect.block (s := S200000x300) S2000x300.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S200000x300.size a
  hwx1_0 : ∀ i : grid1.Coords, EltTy.bits .bf16 = 32 ∨ (Rect.block (s := S200000x300) S2000x300.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x300.size a ≤ S200000x300.size a
  hwx1_1 : ∀ i : grid1.Coords, EltTy.bits .bf16 = 32 ∨ (Rect.block (s := S200000x300) S2000x300.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x300.size a ≤ S300x300.size a
  hwx1_2 : ∀ i : grid1.Coords, EltTy.bits .f32 = 32 ∨ (Rect.block (s := S300x300) S300x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x300.size a ≤ S1x300.size a
  hwx1_3 : ∀ i : grid1.Coords, EltTy.bits .f32 = 32 ∨ (Rect.block (s := S1x300) S1x300.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x300.size a ≤ S200000x300.size a
  hwx1_4 : ∀ i : grid1.Coords, EltTy.bits .bf16 = 32 ∨ (Rect.block (s := S200000x300) S2000x300.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x300.size a ≤ S200000x300.size a
  hwx2_0 : ∀ i : grid2.Coords, EltTy.bits .bf16 = 32 ∨ (Rect.block (s := S200000x300) S2000x300.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x300.size a ≤ S200000x300.size a
  hwx2_1 : ∀ i : grid2.Coords, EltTy.bits .bf16 = 32 ∨ (Rect.block (s := S200000x300) S2000x300.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S300x300.size a ≤ S300x300.size a
  hwx2_2 : ∀ i : grid2.Coords, EltTy.bits .f32 = 32 ∨ (Rect.block (s := S300x300) S300x300.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x300.size a ≤ S1x300.size a
  hwx2_3 : ∀ i : grid2.Coords, EltTy.bits .f32 = 32 ∨ (Rect.block (s := S1x300) S1x300.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x300.size a ≤ S200000x300.size a
  hwx2_4 : ∀ i : grid2.Coords, EltTy.bits .bf16 = 32 ∨ (Rect.block (s := S200000x300) S2000x300.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x133.size a ≤ S100000x133.size a
  hwx3_0 : ∀ i : grid3.Coords, EltTy.bits .f32 = 32 ∨ (Rect.block (s := S100000x133) S2000x133.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x300.size a ≤ S100000x300.size a
  hwx3_1 : ∀ i : grid3.Coords, EltTy.bits .bf16 = 32 ∨ (Rect.block (s := S100000x300) S2000x300.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S133x300.size a ≤ S133x300.size a
  hwx3_2 : ∀ i : grid3.Coords, EltTy.bits .f32 = 32 ∨ (Rect.block (s := S133x300) S133x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S300x300.size a ≤ S300x300.size a
  hwx3_3 : ∀ i : grid3.Coords, EltTy.bits .f32 = 32 ∨ (Rect.block (s := S300x300) S300x300.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x300.size a ≤ S1x300.size a
  hwx3_4 : ∀ i : grid3.Coords, EltTy.bits .f32 = 32 ∨ (Rect.block (s := S1x300) S1x300.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x300.size a ≤ S100000x300.size a
  hwx3_5 : ∀ i : grid3.Coords, EltTy.bits .bf16 = 32 ∨ (Rect.block (s := S100000x300) S2000x300.size (cc3_transform_5 i) (hinb3_5 i)).WholeWords (EltTy.packing .bf16)

variable [Facts₀]

def dot_S2000x147_S147x300_S2000x300_1_0_0_1_n_n : DotDims S2000x147 S147x300 S2000x300 where
  lhsContracting := [1]
  rhsContracting := [0]
  lhsNonContracting := [0]
  rhsNonContracting := [1]
  lhsBatch := []
  rhsBatch := []
  wf := dot_S2000x147_S147x300_S2000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def dot_S2000x133_S133x300_S2000x300_1_0_0_1_n_n : DotDims S2000x133 S133x300 S2000x300 where
  lhsContracting := [1]
  rhsContracting := [0]
  lhsNonContracting := [0]
  rhsNonContracting := [1]
  lhsBatch := []
  rhsBatch := []
  wf := dot_S2000x133_S133x300_S2000x300_1_0_0_1_n_n_wf
def scatter_S4096x300_S100000x1_S100000x300_1_0_0_1 : ScatterDims S4096x300 S100000x1 S100000x300 where
  updateWindowDims := [1]
  insertedWindowDims := [0]
  scatterDimsToOperandDims := [0]
  indexVectorDim := 1
  wf := scatter_S4096x300_S100000x1_S100000x300_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf

abbrev win0_0 : Pipeline.Window sig grid0 :=
  Pipeline.Window.ofSpec (Memref.whole main_arg1) S2000x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S147x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S300x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S2000x300.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v59) S2000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2000x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S300x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x300.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S2000x300.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg0) S2000x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S2000x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S133x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S300x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S1x300.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S2000x300.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S100000 : Shape := ⟨1, ![100000]⟩
abbrev S147x300 : Shape := ⟨2, ![147, 300]⟩
abbrev S300 : Shape := ⟨1, ![300]⟩
abbrev S300x300 : Shape := ⟨2, ![300, 300]⟩
abbrev S433x300 : Shape := ⟨2, ![433, 300]⟩
abbrev S200000x300 : Shape := ⟨2, ![200000, 300]⟩
abbrev S1x300 : Shape := ⟨2, ![1, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S100000x433 : Shape := ⟨2, ![100000, 433]⟩
abbrev S4096x300 : Shape := ⟨2, ![4096, 300]⟩
abbrev S100000x1 : Shape := ⟨2, ![100000, 1]⟩
abbrev S4096 : Shape := ⟨1, ![4096]⟩
abbrev S4096x1 : Shape := ⟨2, ![4096, 1]⟩

abbrev nBuf : Space → Nat
  | .hbm => 139
  | .vmem => 0
  | .smem => 0
  | _ => 0

abbrev hbmTy0_0 (i : Nat) : BufTy := match i % 128 with
  | 0 => ⟨S100000x133, .f32⟩
  | 1 => ⟨S200000x147, .f32⟩
  | 2 => ⟨S100000x6, .i32⟩
  | 3 => ⟨S200000, .i32⟩
  | 4 => ⟨S200000, .i32⟩
  | 5 => ⟨S100000, .i32⟩
  | 6 => ⟨S147x300, .f32⟩
  | 7 => ⟨S300, .f32⟩
  | 8 => ⟨S300x300, .f32⟩
  | 9 => ⟨S300, .f32⟩
  | 10 => ⟨S433x300, .f32⟩
  | 11 => ⟨S300, .f32⟩
  | 12 => ⟨S200000x300, .f32⟩
  | 13 => ⟨S1x300, .f32⟩
  | 14 => ⟨S200000x300, .f32⟩
  | 15 => ⟨S200000x300, .f32⟩
  | 16 => ⟨S_, .f32⟩
  | 17 => ⟨S200000x300, .f32⟩
  | 18 => ⟨S200000x300, .f32⟩
  | 19 => ⟨S_, .i32⟩
  | 20 => ⟨S100000x6, .i32⟩
  | 21 => ⟨S100000x6, .i1⟩
  | 22 => ⟨S_, .i32⟩
  | 23 => ⟨S100000x6, .i32⟩
  | 24 => ⟨S100000x6, .i32⟩
  | 25 => ⟨S100000x6, .i32⟩
  | 26 => ⟨S100000x6x1, .i32⟩
  | 27 => ⟨S100000x6x300, .f32⟩
  | 28 => ⟨S_, .f32⟩
  | 29 => ⟨S100000x300, .f32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S200000x300, .f32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S200000x300, .f32⟩
  | 48 => ⟨S200000x300, .f32⟩
  | 49 => ⟨S200000x300, .f32⟩
  | 50 => ⟨S200000x300, .f32⟩
  | 51 => ⟨S1x300, .f32⟩
  | 52 => ⟨S200000x300, .f32⟩
  | 53 => ⟨S200000x300, .f32⟩
  | 54 => ⟨S_, .f32⟩
  | 55 => ⟨S200000x300, .f32⟩
  | 56 => ⟨S200000x300, .f32⟩
  | 57 => ⟨S_, .i32⟩
  | 58 => ⟨S100000x6, .i32⟩
  | 59 => ⟨S100000x6, .i1⟩
  | 60 => ⟨S_, .i32⟩
  | 61 => ⟨S100000x6, .i32⟩
  | 62 => ⟨S100000x6, .i32⟩
  | 63 => ⟨S100000x6, .i32⟩
  | 64 => ⟨S100000x6x1, .i32⟩
  | 65 => ⟨S100000x6x300, .f32⟩
  | 66 => ⟨S_, .f32⟩
  | 67 => ⟨S100000x300, .f32⟩
  | 68 => ⟨S_, .i32⟩
  | 69 => ⟨S200000, .i32⟩
  | 70 => ⟨S200000, .i1⟩
  | 71 => ⟨S_, .i32⟩
  | 72 => ⟨S200000, .i32⟩
  | 73 => ⟨S200000, .i32⟩
  | 74 => ⟨S200000, .i32⟩
  | 75 => ⟨S200000x1, .i32⟩
  | 76 => ⟨S200000x300, .f32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S200000x300, .f32⟩
  | 86 => ⟨S200000x300, .f32⟩
  | 87 => ⟨S200000x300, .f32⟩
  | 88 => ⟨S200000x300, .f32⟩
  | 89 => ⟨S1x300, .f32⟩
  | 90 => ⟨S200000x300, .f32⟩
  | 91 => ⟨S200000x300, .f32⟩
  | 92 => ⟨S_, .f32⟩
  | 93 => ⟨S200000x300, .f32⟩
  | 94 => ⟨S200000x300, .f32⟩
  | 95 => ⟨S_, .i32⟩
  | 96 => ⟨S100000x6, .i32⟩
  | 97 => ⟨S100000x6, .i1⟩
  | 98 => ⟨S_, .i32⟩
  | 99 => ⟨S100000x6, .i32⟩
  | 100 => ⟨S100000x6, .i32⟩
  | 101 => ⟨S100000x6, .i32⟩
  | 102 => ⟨S100000x6x1, .i32⟩
  | 103 => ⟨S100000x6x300, .f32⟩
  | 104 => ⟨S_, .f32⟩
  | 105 => ⟨S100000x300, .f32⟩
  | 106 => ⟨S100000x433, .f32⟩
  | 107 => ⟨S100000x300, .f32⟩
  | 108 => ⟨S1x300, .f32⟩
  | 109 => ⟨S100000x300, .f32⟩
  | 110 => ⟨S100000x300, .f32⟩
  | 111 => ⟨S_, .f32⟩
  | 112 => ⟨S100000x300, .f32⟩
  | 113 => ⟨S100000x300, .f32⟩
  | 114 => ⟨S_, .f32⟩
  | 115 => ⟨S4096x300, .f32⟩
  | 116 => ⟨S100000x1, .i32⟩
  | 117 => ⟨S4096x300, .f32⟩
  | 118 => ⟨S_, .f32⟩
  | 119 => ⟨S100000, .f32⟩
  | 120 => ⟨S_, .f32⟩
  | 121 => ⟨S4096, .f32⟩
  | 122 => ⟨S100000x1, .i32⟩
  | 123 => ⟨S4096, .f32⟩
  | 124 => ⟨S4096x1, .f32⟩
  | 125 => ⟨S_, .f32⟩
  | 126 => ⟨S4096x1, .f32⟩
  | 127 => ⟨S4096x1, .i1⟩
  | _ => ⟨S100000x133, .f32⟩

abbrev hbmTy0_1 (i : Nat) : BufTy := match i % 128 with
  | 0 => ⟨S_, .f32⟩
  | 1 => ⟨S4096, .f32⟩
  | 2 => ⟨S4096, .f32⟩
  | 3 => ⟨S4096x1, .f32⟩
  | 4 => ⟨S4096x300, .f32⟩
  | 5 => ⟨S4096x300, .f32⟩
  | 6 => ⟨S_, .f32⟩
  | 7 => ⟨S_, .f32⟩
  | 8 => ⟨S4096x300, .i1⟩
  | 9 => ⟨S4096x300, .f32⟩
  | 10 => ⟨S4096x300, .f32⟩
  | _ => ⟨S100000x133, .f32⟩

abbrev hbmTy (i : Nat) : BufTy := match i / 128 with
  | 0 => hbmTy0_0 i
  | 1 => hbmTy0_1 i
  | _ => ⟨S100000x133, .f32⟩

abbrev bufTy : (tb : Table) → Fin (tcTables nBuf tb) → BufTy
  | .hbm, ⟨i, _⟩ => hbmTy i
  | _, _ => ⟨S100000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call1_cst : Ref sig .tc := ⟨.hbm, 54, rfl⟩
abbrev main_call1_v0 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call2_cst : Ref sig .tc := ⟨.hbm, 92, rfl⟩
abbrev main_call2_v0 : Ref sig .tc := ⟨.hbm, 93, rfl⟩
abbrev main_v62 : Ref sig .tc := ⟨.hbm, 94, rfl⟩
abbrev main_c_12 : Ref sig .tc := ⟨.hbm, 95, rfl⟩
abbrev main_v63 : Ref sig .tc := ⟨.hbm, 96, rfl⟩
abbrev main_v64 : Ref sig .tc := ⟨.hbm, 97, rfl⟩
abbrev main_c_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_call3_cst : Ref sig .tc := ⟨.hbm, 111, rfl⟩
abbrev main_call3_v0 : Ref sig .tc := ⟨.hbm, 112, rfl⟩
abbrev main_v76 : Ref sig .tc := ⟨.hbm, 113, rfl⟩
abbrev main_cst_15 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_cst_17 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_18 : Ref sig .tc := ⟨.hbm, 125, rfl⟩
abbrev main_v85 : Ref sig .tc := ⟨.hbm, 126, rfl⟩
abbrev main_v86 : Ref sig .tc := ⟨.hbm, 127, rfl⟩
abbrev main_cst_19 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_20 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v92 : Ref sig .tc := ⟨.hbm, 138, rfl⟩

abbrev nD : Nat := 1
abbrev τ : Topo := Topo.v7x

variable {F : FTy → Type} [FloatOps F]

class Facts₀ : Prop where
  bcast_S300_S1x300_1 : S300.BroadcastsInDim S1x300 (![1] : Fin 1 → Fin S1x300.rank)
  bcast_S1x300_S200000x300_0_1 : S1x300.BroadcastsInDim S200000x300 (![0, 1] : Fin 2 → Fin S200000x300.rank)
  bcast_S_S200000x300 : S_.BroadcastsInDim S200000x300 (![] : Fin 0 → Fin S200000x300.rank)
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  concatenates_S100000x133_S100000x300_S100000x433_d1 : Shape.Concatenates [S100000x133, S100000x300] S100000x433 1
  bcast_S1x300_S100000x300_0_1 : S1x300.BroadcastsInDim S100000x300 (![0, 1] : Fin 2 → Fin S100000x300.rank)
  bcast_S_S100000x300 : S_.BroadcastsInDim S100000x300 (![] : Fin 0 → Fin S100000x300.rank)
  bcast_S_S4096x300 : S_.BroadcastsInDim S4096x300 (![] : Fin 0 → Fin S4096x300.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x300_0_1 : S4096x1.BroadcastsInDim S4096x300 (![0, 1] : Fin 2 → Fin S4096x300.rank)
  dot_S200000x147_S147x300_S200000x300_1_0_0_1_n_n_wf : DotDims.WF S200000x147 S147x300 S200000x300 [1] [0] [0] [1] [] []
  gather_S200000x300_S100000x6x1_S100000x6x300_2_0_n_n_0_2_1300_wf : GatherDims.WF S200000x300 S100000x6x1 S100000x6x300 [2] [0] [] [0] [] 2 ![1, 300]
  gather_S200000x300_S200000x1_S200000x300_1_0_n_n_0_1_1300_wf : GatherDims.WF S200000x300 S200000x1 S200000x300 [1] [0] [] [0] [] 1 ![1, 300]
  gather_S100000x300_S200000x1_S200000x300_1_0_n_n_0_1_1300_wf : GatherDims.WF S100000x300 S200000x1 S200000x300 [1] [0] [] [0] [] 1 ![1, 300]
  dot_S200000x300_S300x300_S200000x300_1_0_0_1_n_n_wf : DotDims.WF S200000x300 S300x300 S200000x300 [1] [0] [0] [1] [] []
  dot_S100000x433_S433x300_S100000x300_1_0_0_1_n_n_wf : DotDims.WF S100000x433 S433x300 S100000x300 [1] [0] [0] [1] [] []
  scatter_S4096x300_S100000x1_S100000x300_1_0_0_1_wf : ScatterDims.WF S4096x300 S100000x1 S100000x300 [1] [0] [0] 1
  scatter_S4096_S100000x1_S100000_n_0_0_1_wf : ScatterDims.WF S4096 S100000x1 S100000 [] [0] [0] 1

variable [Facts₀]

def dot_S200000x147_S147x300_S200000x300_1_0_0_1_n_n : DotDims S200000x147 S147x300 S200000x300 where
  lhsContracting := [1]
  rhsContracting := [0]
  lhsNonContracting := [0]
  rhsNonContracting := [1]
  lhsBatch := []
  rhsBatch := []
  wf := dot_S200000x147_S147x300_S200000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def dot_S200000x300_S300x300_S200000x300_1_0_0_1_n_n : DotDims S200000x300 S300x300 S200000x300 where
  lhsContracting := [1]
  rhsContracting := [0]
  lhsNonContracting := [0]
  rhsNonContracting := [1]
  lhsBatch := []
  rhsBatch := []
  wf := dot_S200000x300_S300x300_S200000x300_1_0_0_1_n_n_wf
def dot_S100000x433_S433x300_S100000x300_1_0_0_1_n_n : DotDims S100000x433 S433x300 S100000x300 where
  lhsContracting := [1]
  rhsContracting := [0]
  lhsNonContracting := [0]
  rhsNonContracting := [1]
  lhsBatch := []
  rhsBatch := []
  wf := dot_S100000x433_S433x300_S100000x300_1_0_0_1_n_n_wf
def scatter_S4096x300_S100000x1_S100000x300_1_0_0_1 : ScatterDims S4096x300 S100000x1 S100000x300 where
  updateWindowDims := [1]
  insertedWindowDims := [0]
  scatterDimsToOperandDims := [0]
  indexVectorDim := 1
  wf := scatter_S4096x300_S100000x1_S100000x300_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf

class Facts : Prop extends Facts₀ where

variable [Facts]
-- ==== Proof.KRun.lean ====
/-
  The idealized kernel's whole run, with every buffer named.  @main is four grid launches among stretches of host
  operations; run from any memory with zero counters it terminates without a fault, and each TensorCore buffer that
  outlives a launch ends at the contents the segments' fold leaves in it: a stretch applies its operations to what it
  finds, a launch replaces its output array by what its grid points wrote back and leaves every other buffer alone.
  The result array and the argument arrays are read off that one statement.
-/
import proofs.«162405_j3478923510262_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped TensorCore buffer at the
    contents the last segment leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-- The same run, the result array and the twelve argument arrays picked out. -/
theorem run_result : θ_run defs (onTc (τ := τ) (main (F := F))) ⟨m, fun _ => 0, ρ⟩ (fun r => ∀ c : Dev nD,
      r.2.mem ((c.tc : Thread nD τ).loc main_v93) = W20 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun s h c =>
      ⟨h c _ (mem_uc main_v93 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c)⟩)
    (run_all m ρ)

end Cert.KernelIdeal.Whole

end
-- ==== Proof.KChain.lean ====
/-
  Which buffers the kernel program leaves alone.  An argument array, and the input layer's output once written, is
  read again at several later points of @main; between two such points no host operation writes it and a launch
  writes only its own output array, so it still holds what it held.  Each statement here says that of one buffer at
  one boundary of @main's segments: it holds its launch contents (an argument), or what the first launch left (the
  input layer's output).
-/
import proofs.«162405_j3478923510262_2_alg».proof.Proof.Gen.KernelIdeal.Frame

set_option maxRecDepth 16384

noncomputable section

namespace Cert.KernelIdeal.Kept

open Cert.KernelIdeal Cert.KernelIdeal.Gen Idealize.ShloMosaic Idealize.ShloMosaic.TcCoe Idealize.SL.Sem
open Idealize.ShloMosaic.Pipeline (Dat Cfg Window)

/-- Peels stretches of host operations off a buffer none of them writes. -/
macro "keeps" : tactic => `(tactic| (repeat (first
  | with_reducible rfl
  | (refine (Idealize.ShloMosaic.StableHlo.after_of_forall_not_mem _ _ (List.forall_iff_forall_mem.mp (by
        simp only [hostOps0, hostOps1, hostOps1_1, hostOps1_2, hostOps1_3, hostOps1_4, hostOps2, hostOps2_1, hostOps2_2, hostOps2_3, hostOps2_4,
          hostOps3, hostOps3_1, hostOps3_2, hostOps4, hostOps4_1, List.Forall,
          Idealize.ShloMosaic.StableHlo.nullary_writes, Idealize.ShloMosaic.StableHlo.unary_writes, Idealize.ShloMosaic.StableHlo.binary_writes,
          Idealize.ShloMosaic.StableHlo.ternary_writes, Idealize.ShloMosaic.StableHlo.quaternary_writes, Idealize.ShloMosaic.StableHlo.reshape_writes,
          Idealize.ShloMosaic.StableHlo.binaryIndexed_writes, Finset.mem_singleton]
        repeat' apply And.intro
        all_goals exact Idealize.ShloMosaic.StableHlo.devRef_ne_of_ne (by decide)))).trans ?_))))

variable {F : FTy → Type} [FloatOps F]
variable (m : (ℓ : Loc nD τ sig) → Buf (Elt F) ℓ) (ρ : Dev nD → PrngReg) (c : Dev nD)

theorem main_arg1_at1 : W1 m ρ c (Proc.devRef .tc main_arg1) = m ((c : Thread nD τ).loc main_arg1) := (by keeps : W1 m ρ c (Proc.devRef .tc main_arg1) = W0 m ρ c (Proc.devRef .tc main_arg1)).trans rfl
theorem main_arg6_at1 : W1 m ρ c (Proc.devRef .tc main_arg6) = m ((c : Thread nD τ).loc main_arg6) := (by keeps : W1 m ρ c (Proc.devRef .tc main_arg6) = W0 m ρ c (Proc.devRef .tc main_arg6)).trans rfl
theorem main_arg2_at1 : W1 m ρ c (Proc.devRef .tc main_arg2) = m ((c : Thread nD τ).loc main_arg2) := (by keeps : W1 m ρ c (Proc.devRef .tc main_arg2) = W0 m ρ c (Proc.devRef .tc main_arg2)).trans rfl
theorem main_arg2_at2 : W2 m ρ c (Proc.devRef .tc main_arg2) = m ((c : Thread nD τ).loc main_arg2) := (W2_of_ne m ρ c main_arg2 (by decide)).trans (main_arg2_at1 m ρ c)
theorem main_arg2_at7 : W7 m ρ c (Proc.devRef .tc main_arg2) = m ((c : Thread nD τ).loc main_arg2) := (by keeps : W7 m ρ c (Proc.devRef .tc main_arg2) = W2 m ρ c (Proc.devRef .tc main_arg2)).trans (main_arg2_at2 m ρ c)
theorem main_arg2_at8 : W8 m ρ c (Proc.devRef .tc main_arg2) = m ((c : Thread nD τ).loc main_arg2) := (W8_of_ne m ρ c main_arg2 (by decide)).trans (main_arg2_at7 m ρ c)
theorem main_arg2_at13 : W13 m ρ c (Proc.devRef .tc main_arg2) = m ((c : Thread nD τ).loc main_arg2) := (by keeps : W13 m ρ c (Proc.devRef .tc main_arg2) = W8 m ρ c (Proc.devRef .tc main_arg2)).trans (main_arg2_at8 m ρ c)
theorem main_arg2_at14 : W14 m ρ c (Proc.devRef .tc main_arg2) = m ((c : Thread nD τ).loc main_arg2) := (W14_of_ne m ρ c main_arg2 (by decide)).trans (main_arg2_at13 m ρ c)
theorem main_arg3_at1 : W1 m ρ c (Proc.devRef .tc main_arg3) = m ((c : Thread nD τ).loc main_arg3) := (by keeps : W1 m ρ c (Proc.devRef .tc main_arg3) = W0 m ρ c (Proc.devRef .tc main_arg3)).trans rfl
theorem main_arg3_at2 : W2 m ρ c (Proc.devRef .tc main_arg3) = m ((c : Thread nD τ).loc main_arg3) := (W2_of_ne m ρ c main_arg3 (by decide)).trans (main_arg3_at1 m ρ c)
theorem main_arg3_at7 : W7 m ρ c (Proc.devRef .tc main_arg3) = m ((c : Thread nD τ).loc main_arg3) := (by keeps : W7 m ρ c (Proc.devRef .tc main_arg3) = W2 m ρ c (Proc.devRef .tc main_arg3)).trans (main_arg3_at2 m ρ c)
theorem main_arg3_at8 : W8 m ρ c (Proc.devRef .tc main_arg3) = m ((c : Thread nD τ).loc main_arg3) := (W8_of_ne m ρ c main_arg3 (by decide)).trans (main_arg3_at7 m ρ c)
theorem main_arg4_at1 : W1 m ρ c (Proc.devRef .tc main_arg4) = m ((c : Thread nD τ).loc main_arg4) := (by keeps : W1 m ρ c (Proc.devRef .tc main_arg4) = W0 m ρ c (Proc.devRef .tc main_arg4)).trans rfl
theorem main_arg4_at2 : W2 m ρ c (Proc.devRef .tc main_arg4) = m ((c : Thread nD τ).loc main_arg4) := (W2_of_ne m ρ c main_arg4 (by decide)).trans (main_arg4_at1 m ρ c)
theorem main_arg4_at7 : W7 m ρ c (Proc.devRef .tc main_arg4) = m ((c : Thread nD τ).loc main_arg4) := (by keeps : W7 m ρ c (Proc.devRef .tc main_arg4) = W2 m ρ c (Proc.devRef .tc main_arg4)).trans (main_arg4_at2 m ρ c)
theorem main_arg4_at8 : W8 m ρ c (Proc.devRef .tc main_arg4) = m ((c : Thread nD τ).loc main_arg4) := (W8_of_ne m ρ c main_arg4 (by decide)).trans (main_arg4_at7 m ρ c)
theorem main_arg9_at1 : W1 m ρ c (Proc.devRef .tc main_arg9) = m ((c : Thread nD τ).loc main_arg9) := (by keeps : W1 m ρ c (Proc.devRef .tc main_arg9) = W0 m ρ c (Proc.devRef .tc main_arg9)).trans rfl
theorem main_arg9_at2 : W2 m ρ c (Proc.devRef .tc main_arg9) = m ((c : Thread nD τ).loc main_arg9) := (W2_of_ne m ρ c main_arg9 (by decide)).trans (main_arg9_at1 m ρ c)
theorem main_arg9_at7 : W7 m ρ c (Proc.devRef .tc main_arg9) = m ((c : Thread nD τ).loc main_arg9) := (by keeps : W7 m ρ c (Proc.devRef .tc main_arg9) = W2 m ρ c (Proc.devRef .tc main_arg9)).trans (main_arg9_at2 m ρ c)
theorem main_arg9_at8 : W8 m ρ c (Proc.devRef .tc main_arg9) = m ((c : Thread nD τ).loc main_arg9) := (W8_of_ne m ρ c main_arg9 (by decide)).trans (main_arg9_at7 m ρ c)
theorem main_arg8_at1 : W1 m ρ c (Proc.devRef .tc main_arg8) = m ((c : Thread nD τ).loc main_arg8) := (by keeps : W1 m ρ c (Proc.devRef .tc main_arg8) = W0 m ρ c (Proc.devRef .tc main_arg8)).trans rfl
theorem main_arg8_at2 : W2 m ρ c (Proc.devRef .tc main_arg8) = m ((c : Thread nD τ).loc main_arg8) := (W2_of_ne m ρ c main_arg8 (by decide)).trans (main_arg8_at1 m ρ c)
theorem main_arg8_at7 : W7 m ρ c (Proc.devRef .tc main_arg8) = m ((c : Thread nD τ).loc main_arg8) := (by keeps : W7 m ρ c (Proc.devRef .tc main_arg8) = W2 m ρ c (Proc.devRef .tc main_arg8)).trans (main_arg8_at2 m ρ c)
theorem main_arg8_at8 : W8 m ρ c (Proc.devRef .tc main_arg8) = m ((c : Thread nD τ).loc main_arg8) := ((W8_arr m ρ c 2).trans (((dat1 (V7 m ρ) c).arrAt_in 2 rfl _).trans (A_eq1 (V7 m ρ) c 2))).trans (main_arg8_at7 m ρ c)
theorem main_arg8_at13 : W13 m ρ c (Proc.devRef .tc main_arg8) = m ((c : Thread nD τ).loc main_arg8) := (by keeps : W13 m ρ c (Proc.devRef .tc main_arg8) = W8 m ρ c (Proc.devRef .tc main_arg8)).trans (main_arg8_at8 m ρ c)
theorem main_arg0_at1 : W1 m ρ c (Proc.devRef .tc main_arg0) = m ((c : Thread nD τ).loc main_arg0) := (by keeps : W1 m ρ c (Proc.devRef .tc main_arg0) = W0 m ρ c (Proc.devRef .tc main_arg0)).trans rfl
theorem main_arg0_at2 : W2 m ρ c (Proc.devRef .tc main_arg0) = m ((c : Thread nD τ).loc main_arg0) := (W2_of_ne m ρ c main_arg0 (by decide)).trans (main_arg0_at1 m ρ c)
theorem main_arg0_at7 : W7 m ρ c (Proc.devRef .tc main_arg0) = m ((c : Thread nD τ).loc main_arg0) := (by keeps : W7 m ρ c (Proc.devRef .tc main_arg0) = W2 m ρ c (Proc.devRef .tc main_arg0)).trans (main_arg0_at2 m ρ c)
theorem main_arg0_at8 : W8 m ρ c (Proc.devRef .tc main_arg0) = m ((c : Thread nD τ).loc main_arg0) := (W8_of_ne m ρ c main_arg0 (by decide)).trans (main_arg0_at7 m ρ c)
theorem main_arg0_at13 : W13 m ρ c (Proc.devRef .tc main_arg0) = m ((c : Thread nD τ).loc main_arg0) := (by keeps : W13 m ρ c (Proc.devRef .tc main_arg0) = W8 m ρ c (Proc.devRef .tc main_arg0)).trans (main_arg0_at8 m ρ c)
theorem main_arg0_at14 : W14 m ρ c (Proc.devRef .tc main_arg0) = m ((c : Thread nD τ).loc main_arg0) := (W14_of_ne m ρ c main_arg0 (by decide)).trans (main_arg0_at13 m ρ c)
theorem main_arg0_at17 : W17 m ρ c (Proc.devRef .tc main_arg0) = m ((c : Thread nD τ).loc main_arg0) := (by keeps : W17 m ρ c (Proc.devRef .tc main_arg0) = W14 m ρ c (Proc.devRef .tc main_arg0)).trans (main_arg0_at14 m ρ c)
theorem main_arg10_at1 : W1 m ρ c (Proc.devRef .tc main_arg10) = m ((c : Thread nD τ).loc main_arg10) := (by keeps : W1 m ρ c (Proc.devRef .tc main_arg10) = W0 m ρ c (Proc.devRef .tc main_arg10)).trans rfl
theorem main_arg10_at2 : W2 m ρ c (Proc.devRef .tc main_arg10) = m ((c : Thread nD τ).loc main_arg10) := (W2_of_ne m ρ c main_arg10 (by decide)).trans (main_arg10_at1 m ρ c)
theorem main_arg10_at7 : W7 m ρ c (Proc.devRef .tc main_arg10) = m ((c : Thread nD τ).loc main_arg10) := (by keeps : W7 m ρ c (Proc.devRef .tc main_arg10) = W2 m ρ c (Proc.devRef .tc main_arg10)).trans (main_arg10_at2 m ρ c)
theorem main_arg10_at8 : W8 m ρ c (Proc.devRef .tc main_arg10) = m ((c : Thread nD τ).loc main_arg10) := (W8_of_ne m ρ c main_arg10 (by decide)).trans (main_arg10_at7 m ρ c)
theorem main_arg10_at13 : W13 m ρ c (Proc.devRef .tc main_arg10) = m ((c : Thread nD τ).loc main_arg10) := (by keeps : W13 m ρ c (Proc.devRef .tc main_arg10) = W8 m ρ c (Proc.devRef .tc main_arg10)).trans (main_arg10_at8 m ρ c)
theorem main_arg10_at14 : W14 m ρ c (Proc.devRef .tc main_arg10) = m ((c : Thread nD τ).loc main_arg10) := (W14_of_ne m ρ c main_arg10 (by decide)).trans (main_arg10_at13 m ρ c)
theorem main_arg11_at1 : W1 m ρ c (Proc.devRef .tc main_arg11) = m ((c : Thread nD τ).loc main_arg11) := (by keeps : W1 m ρ c (Proc.devRef .tc main_arg11) = W0 m ρ c (Proc.devRef .tc main_arg11)).trans rfl
theorem main_arg11_at2 : W2 m ρ c (Proc.devRef .tc main_arg11) = m ((c : Thread nD τ).loc main_arg11) := (W2_of_ne m ρ c main_arg11 (by decide)).trans (main_arg11_at1 m ρ c)
theorem main_arg11_at7 : W7 m ρ c (Proc.devRef .tc main_arg11) = m ((c : Thread nD τ).loc main_arg11) := (by keeps : W7 m ρ c (Proc.devRef .tc main_arg11) = W2 m ρ c (Proc.devRef .tc main_arg11)).trans (main_arg11_at2 m ρ c)
theorem main_arg11_at8 : W8 m ρ c (Proc.devRef .tc main_arg11) = m ((c : Thread nD τ).loc main_arg11) := (W8_of_ne m ρ c main_arg11 (by decide)).trans (main_arg11_at7 m ρ c)
theorem main_arg11_at13 : W13 m ρ c (Proc.devRef .tc main_arg11) = m ((c : Thread nD τ).loc main_arg11) := (by keeps : W13 m ρ c (Proc.devRef .tc main_arg11) = W8 m ρ c (Proc.devRef .tc main_arg11)).trans (main_arg11_at8 m ρ c)
theorem main_arg11_at14 : W14 m ρ c (Proc.devRef .tc main_arg11) = m ((c : Thread nD τ).loc main_arg11) := (W14_of_ne m ρ c main_arg11 (by decide)).trans (main_arg11_at13 m ρ c)
theorem main_arg5_at1 : W1 m ρ c (Proc.devRef .tc main_arg5) = m ((c : Thread nD τ).loc main_arg5) := (by keeps : W1 m ρ c (Proc.devRef .tc main_arg5) = W0 m ρ c (Proc.devRef .tc main_arg5)).trans rfl
theorem main_arg5_at2 : W2 m ρ c (Proc.devRef .tc main_arg5) = m ((c : Thread nD τ).loc main_arg5) := (W2_of_ne m ρ c main_arg5 (by decide)).trans (main_arg5_at1 m ρ c)
theorem main_arg5_at7 : W7 m ρ c (Proc.devRef .tc main_arg5) = m ((c : Thread nD τ).loc main_arg5) := (by keeps : W7 m ρ c (Proc.devRef .tc main_arg5) = W2 m ρ c (Proc.devRef .tc main_arg5)).trans (main_arg5_at2 m ρ c)
theorem main_arg5_at8 : W8 m ρ c (Proc.devRef .tc main_arg5) = m ((c : Thread nD τ).loc main_arg5) := (W8_of_ne m ρ c main_arg5 (by decide)).trans (main_arg5_at7 m ρ c)
theorem main_arg5_at13 : W13 m ρ c (Proc.devRef .tc main_arg5) = m ((c : Thread nD τ).loc main_arg5) := (by keeps : W13 m ρ c (Proc.devRef .tc main_arg5) = W8 m ρ c (Proc.devRef .tc main_arg5)).trans (main_arg5_at8 m ρ c)
theorem main_arg5_at14 : W14 m ρ c (Proc.devRef .tc main_arg5) = m ((c : Thread nD τ).loc main_arg5) := (W14_of_ne m ρ c main_arg5 (by decide)).trans (main_arg5_at13 m ρ c)
theorem main_arg5_at17 : W17 m ρ c (Proc.devRef .tc main_arg5) = m ((c : Thread nD τ).loc main_arg5) := (by keeps : W17 m ρ c (Proc.devRef .tc main_arg5) = W14 m ρ c (Proc.devRef .tc main_arg5)).trans (main_arg5_at14 m ρ c)
theorem main_arg5_at18 : W18 m ρ c (Proc.devRef .tc main_arg5) = m ((c : Thread nD τ).loc main_arg5) := (W18_of_ne m ρ c main_arg5 (by decide)).trans (main_arg5_at17 m ρ c)
theorem main_v1_at7 : W7 m ρ c (Proc.devRef .tc main_v1) = W2 m ρ c (Proc.devRef .tc main_v1) := (by keeps : W7 m ρ c (Proc.devRef .tc main_v1) = W2 m ρ c (Proc.devRef .tc main_v1))
theorem main_v1_at8 : W8 m ρ c (Proc.devRef .tc main_v1) = W2 m ρ c (Proc.devRef .tc main_v1) := ((W8_arr m ρ c 1).trans (((dat1 (V7 m ρ) c).arrAt_in 1 rfl _).trans (A_eq1 (V7 m ρ) c 1))).trans (main_v1_at7 m ρ c)
theorem main_v1_at13 : W13 m ρ c (Proc.devRef .tc main_v1) = W2 m ρ c (Proc.devRef .tc main_v1) := (by keeps : W13 m ρ c (Proc.devRef .tc main_v1) = W8 m ρ c (Proc.devRef .tc main_v1)).trans (main_v1_at8 m ρ c)

end Cert.KernelIdeal.Kept

end
-- ==== Proof.KStages.lean ====
/-
  The kernel program's host operations between its four launches, as pure functions of the arrays they read.
    rowsA / rowsRev / rowsB2a   the start indices of a row gather: a negative index counts back from the table's length
    agg cur a2b      Σ over an atom's six bond slots of max(cur[a2b], 0)              (atoms × hidden)
    rev cur b2revb   max(cur[b2revb], 0)                                              (bonds × hidden)
    msg cur …        agg(cur)[b2a] − rev(cur)                                          (bonds × hidden)
    readout hid mol  the per-molecule mean of the atom rows: the row sums scattered by molecule, divided by
                     max(count, 1), and 0 where a molecule has no atom
  Each is the literal composition of the printed operations, so that the program's buffer contents meet them by
  unfolding alone.
-/
import proofs.«162405_j3478923510262_2_alg».proof.Proof.Gen.KernelIdeal

noncomputable section

namespace Cert.KernelIdeal.Stages

open Cert.KernelIdeal Cert.KernelIdeal.Gen Idealize.ShloMosaic

variable {F : FTy → Type} [FloatOps F]

/-- Start indices into the 200000 bond rows from the atoms' six slots. -/
def rowsA (x2 : (⟨S100000x6, .i32⟩ : BufTy).Contents (Elt F)) : (⟨S100000x6x1, .i32⟩ : BufTy).Contents (Elt F) :=
  broadcastInDim S100000x6x1 ![0, 1] bcast_S100000x6_S100000x6x1_0_1
    (select (cmpi .slt x2 (broadcastInDim S100000x6 ![] bcast_S_S100000x6 (constantI S_ 32 0#32)))
      (addi x2 (broadcastInDim S100000x6 ![] bcast_S_S100000x6 (constantI S_ 32 200000#32))) x2)

/-- Start indices into the 200000 bond rows from each bond's reverse bond. -/
def rowsRev (x4 : (⟨S200000, .i32⟩ : BufTy).Contents (Elt F)) : (⟨S200000x1, .i32⟩ : BufTy).Contents (Elt F) :=
  broadcastInDim S200000x1 ![0] bcast_S200000_S200000x1_0
    (select (cmpi .slt x4 (broadcastInDim S200000 ![] bcast_S_S200000 (constantI S_ 32 0#32)))
      (addi x4 (broadcastInDim S200000 ![] bcast_S_S200000 (constantI S_ 32 200000#32))) x4)

/-- Start indices into the 100000 atom rows from each bond's source atom. -/
def rowsB2a (x3 : (⟨S200000, .i32⟩ : BufTy).Contents (Elt F)) : (⟨S200000x1, .i32⟩ : BufTy).Contents (Elt F) :=
  broadcastInDim S200000x1 ![0] bcast_S200000_S200000x1_0
    (select (cmpi .slt x3 (broadcastInDim S200000 ![] bcast_S_S200000 (constantI S_ 32 0#32)))
      (addi x3 (broadcastInDim S200000 ![] bcast_S_S200000 (constantI S_ 32 100000#32))) x3)

/-- The rectified bond rows gathered at the atoms' six slots. -/
def nei (cur : (⟨S200000x300, .bf16⟩ : BufTy).Contents (Elt F)) (x2 : (⟨S100000x6, .i32⟩ : BufTy).Contents (Elt F)) : (⟨S100000x6x300, .f32⟩ : BufTy).Contents (Elt F) :=
  maximumf (extf .f32 (Host.gather gather_S200000x300_S100000x6x1_S100000x6x300_2_0_n_n_0_2_1300 cur (rowsA x2)) bitsLt_bf16_f32)
    (broadcastInDim S100000x6x300 ![] bcast_S_S100000x6x300 (constant S_ .f32 0x00000000#32))

/-- Each atom's sum over its six slots. -/
def agg (cur : (⟨S200000x300, .bf16⟩ : BufTy).Contents (Elt F)) (x2 : (⟨S100000x6, .i32⟩ : BufTy).Contents (Elt F)) : (⟨S100000x300, .f32⟩ : BufTy).Contents (Elt F) :=
  Host.reduceAdd (nei cur x2) (constant S_ .f32 0x00000000#32) reducesTo_S100000x6x300_S100000x300_d1 h_S_

/-- The rectified row of each bond's reverse bond. -/
def rev (cur : (⟨S200000x300, .bf16⟩ : BufTy).Contents (Elt F)) (x4 : (⟨S200000, .i32⟩ : BufTy).Contents (Elt F)) : (⟨S200000x300, .f32⟩ : BufTy).Contents (Elt F) :=
  maximumf (extf .f32 (Host.gather gather_S200000x300_S200000x1_S200000x300_1_0_n_n_0_1_1300 cur (rowsRev x4)) bitsLt_bf16_f32)
    (broadcastInDim S200000x300 ![] bcast_S_S200000x300 (constant S_ .f32 0x00000000#32))

/-- The message into each bond: its source atom's sum less its reverse bond's row. -/
def msg (cur : (⟨S200000x300, .bf16⟩ : BufTy).Contents (Elt F)) (x2 : (⟨S100000x6, .i32⟩ : BufTy).Contents (Elt F)) (x3 x4 : (⟨S200000, .i32⟩ : BufTy).Contents (Elt F)) : (⟨S200000x300, .bf16⟩ : BufTy).Contents (Elt F) :=
  truncf .bf16 (subf (Host.gather gather_S100000x300_S200000x1_S200000x300_1_0_n_n_0_1_1300 (agg cur x2) (rowsB2a x3)) (rev cur x4)) bitsLt_bf16_f32

/-- The atoms' sums as the last launch reads them. -/
def aggOut (cur : (⟨S200000x300, .bf16⟩ : BufTy).Contents (Elt F)) (x2 : (⟨S100000x6, .i32⟩ : BufTy).Contents (Elt F)) : (⟨S100000x300, .bf16⟩ : BufTy).Contents (Elt F) :=
  truncf .bf16 (agg cur x2) bitsLt_bf16_f32

/-- The number of atoms of each molecule. -/
def counts (x5 : (⟨S100000, .i32⟩ : BufTy).Contents (Elt F)) : (⟨S4096, .f32⟩ : BufTy).Contents (Elt F) :=
  Host.scatterAdd scatter_S4096_S100000x1_S100000_n_0_0_1 (broadcastInDim S4096 ![] bcast_S_S4096 (constant S_ .f32 0x00000000#32))
    (broadcastInDim S100000x1 ![0] bcast_S100000_S100000x1_0 x5) (broadcastInDim S100000 ![] bcast_S_S100000 (constant S_ .f32 0x3F800000#32))

/-- Which molecules have an atom. -/
def mask (x5 : (⟨S100000, .i32⟩ : BufTy).Contents (Elt F)) : (⟨S4096x1, .i1⟩ : BufTy).Contents (Elt F) :=
  cmpf .ogt (broadcastInDim S4096x1 ![0] bcast_S4096_S4096x1_0 (counts x5)) (broadcastInDim S4096x1 ![] bcast_S_S4096x1 (constant S_ .f32 0x00000000#32))

/-- Each molecule's summed atom rows over max(count, 1). -/
def means (hid : (⟨S100000x300, .bf16⟩ : BufTy).Contents (Elt F)) (x5 : (⟨S100000, .i32⟩ : BufTy).Contents (Elt F)) : (⟨S4096x300, .f32⟩ : BufTy).Contents (Elt F) :=
  Host.divf (Host.scatterAdd scatter_S4096x300_S100000x1_S100000x300_1_0_0_1 (broadcastInDim S4096x300 ![] bcast_S_S4096x300 (constant S_ .f32 0x00000000#32))
      (broadcastInDim S100000x1 ![0] bcast_S100000_S100000x1_0 x5) (extf .f32 hid bitsLt_bf16_f32))
    (broadcastInDim S4096x300 ![0, 1] bcast_S4096x1_S4096x300_0_1 (broadcastInDim S4096x1 ![0] bcast_S4096_S4096x1_0
      (maximumf (counts x5) (broadcastInDim S4096 ![] bcast_S_S4096 (constant S_ .f32 0x3F800000#32)))))

/-- The choice between the mean and zero, row by row. -/
def pick (mk : (⟨S4096x1, .i1⟩ : BufTy).Contents (Elt F)) (mn : (⟨S4096x300, .f32⟩ : BufTy).Contents (Elt F)) (z : (⟨S_, .f32⟩ : BufTy).Contents (Elt F)) : (⟨S4096x300, .f32⟩ : BufTy).Contents (Elt F) :=
  select (broadcastInDim S4096x300 ![0, 1] bcast_S4096x1_S4096x300_0_1 mk) mn (broadcastInDim S4096x300 ![] bcast_S_S4096x300 (id z))

/-- The per-molecule mean of the atom rows. -/
def readout (hid : (⟨S100000x300, .bf16⟩ : BufTy).Contents (Elt F)) (x5 : (⟨S100000, .i32⟩ : BufTy).Contents (Elt F)) : (⟨S4096x300, .f32⟩ : BufTy).Contents (Elt F) :=
  pick (mask x5) (means hid x5) (constant S_ .f32 0x00000000#32)

end Cert.KernelIdeal.Stages

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.Bodies.lean ====
/-
  What each of the four kernel bodies stores, read at an entry (p, q) of its 2000-row block, at the ideal values
  (changes of float format are the identity there):
    the input layer      x·W + b          at (p, q):  Σ_k x(p,k)·W(k,q) + b(0,q)
    the update layer     (c + m·W) + b    at (p, q):  (c(p,q) + Σ_k m(p,k)·W(k,q)) + b(0,q)
    the output layer     max((f·T + a·B) + b, 0)  at (p, q):  max((Σ_k f(p,k)·T(k,q) + Σ_k a(p,k)·B(k,q)) + b(0,q), 0)
  The bias is a one-row array spread over the block's rows.
-/
import proofs.«162405_j3478923510262_2_alg».proof.Proof.Gen.KernelIdeal.Skeleton
import proofs.«162405_j3478923510262_2_alg».proof.Proof.LibMatmulIx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Cert.KernelIdeal Cert.KernelIdeal.Gen Idealize.ShloMosaic Idealize.ShloMosaic.ValueIdx

theorem dot_S2000x147_S147x300_S2000x300_1_0_0_1_n_n_l0 (i : S2000x300.Idx) (q : dot_S2000x147_S147x300_S2000x300_1_0_0_1_n_n.contr.Idx) : (dot_S2000x147_S147x300_S2000x300_1_0_0_1_n_n.lhsIdx i q 0).val = (i 0).val := by
  unfold DotDims.lhsIdx
  rw [dif_neg (show ¬(0 : Fin S2000x147.rank) ∈ dot_S2000x147_S147x300_S2000x300_1_0_0_1_n_n.lhsBatch by decide), dif_pos (show (0 : Fin S2000x147.rank) ∈ dot_S2000x147_S147x300_S2000x300_1_0_0_1_n_n.lhsNonContracting by decide)]
  rfl
theorem dot_S2000x147_S147x300_S2000x300_1_0_0_1_n_n_l1 (i : S2000x300.Idx) (q : dot_S2000x147_S147x300_S2000x300_1_0_0_1_n_n.contr.Idx) : (dot_S2000x147_S147x300_S2000x300_1_0_0_1_n_n.lhsIdx i q 1).val = (q ⟨0, by decide⟩).val :=
  dot_S2000x147_S147x300_S2000x300_1_0_0_1_n_n.lhsIdx_val_of_single rfl i q
theorem dot_S2000x147_S147x300_S2000x300_1_0_0_1_n_n_r0 (i : S2000x300.Idx) (q : dot_S2000x147_S147x300_S2000x300_1_0_0_1_n_n.contr.Idx) : (dot_S2000x147_S147x300_S2000x300_1_0_0_1_n_n.rhsIdx i q 0).val = (q ⟨0, by decide⟩).val :=
  dot_S2000x147_S147x300_S2000x300_1_0_0_1_n_n.rhsIdx_val_of_single rfl i q
theorem dot_S2000x147_S147x300_S2000x300_1_0_0_1_n_n_r1 (i : S2000x300.Idx) (q : dot_S2000x147_S147x300_S2000x300_1_0_0_1_n_n.contr.Idx) : (dot_S2000x147_S147x300_S2000x300_1_0_0_1_n_n.rhsIdx i q 1).val = (i 1).val := by
  unfold DotDims.rhsIdx
  rw [dif_neg (show ¬(1 : Fin S147x300.rank) ∈ dot_S2000x147_S147x300_S2000x300_1_0_0_1_n_n.rhsBatch by decide), dif_pos (show (1 : Fin S147x300.rank) ∈ dot_S2000x147_S147x300_S2000x300_1_0_0_1_n_n.rhsNonContracting by decide)]
  rfl
/-- The product into the zero splat at (p, q): row p of the left operand against column q of the right one. -/
theorem dot_S2000x147_S147x300_S2000x300_1_0_0_1_n_n_mm {φ₁ φ₂ : FTy} (x : FVec Ideal S2000x147 φ₁) (w : FVec Ideal S147x300 φ₂) (p : Fin 2000) (q : Fin 300) :
    matmul dot_S2000x147_S147x300_S2000x300_1_0_0_1_n_n none x w (constant (F := Ideal) S2000x300 .f32 0x00000000#32) (ix2 p q) = ∑ k : Fin 147, x (ix2 p k) * w (ix2 k q) :=
  MatmulIx.matmul_zero_ix2 dot_S2000x147_S147x300_S2000x300_1_0_0_1_n_n rfl rfl dot_S2000x147_S147x300_S2000x300_1_0_0_1_n_n_l0 dot_S2000x147_S147x300_S2000x300_1_0_0_1_n_n_l1 dot_S2000x147_S147x300_S2000x300_1_0_0_1_n_n_r0 dot_S2000x147_S147x300_S2000x300_1_0_0_1_n_n_r1 none x w p q

theorem dot_S2000x300_S300x300_S2000x300_1_0_0_1_n_n_l0 (i : S2000x300.Idx) (q : dot_S2000x300_S300x300_S2000x300_1_0_0_1_n_n.contr.Idx) : (dot_S2000x300_S300x300_S2000x300_1_0_0_1_n_n.lhsIdx i q 0).val = (i 0).val := by
  unfold DotDims.lhsIdx
  rw [dif_neg (show ¬(0 : Fin S2000x300.rank) ∈ dot_S2000x300_S300x300_S2000x300_1_0_0_1_n_n.lhsBatch by decide), dif_pos (show (0 : Fin S2000x300.rank) ∈ dot_S2000x300_S300x300_S2000x300_1_0_0_1_n_n.lhsNonContracting by decide)]
  rfl
theorem dot_S2000x300_S300x300_S2000x300_1_0_0_1_n_n_l1 (i : S2000x300.Idx) (q : dot_S2000x300_S300x300_S2000x300_1_0_0_1_n_n.contr.Idx) : (dot_S2000x300_S300x300_S2000x300_1_0_0_1_n_n.lhsIdx i q 1).val = (q ⟨0, by decide⟩).val :=
  dot_S2000x300_S300x300_S2000x300_1_0_0_1_n_n.lhsIdx_val_of_single rfl i q
theorem dot_S2000x300_S300x300_S2000x300_1_0_0_1_n_n_r0 (i : S2000x300.Idx) (q : dot_S2000x300_S300x300_S2000x300_1_0_0_1_n_n.contr.Idx) : (dot_S2000x300_S300x300_S2000x300_1_0_0_1_n_n.rhsIdx i q 0).val = (q ⟨0, by decide⟩).val :=
  dot_S2000x300_S300x300_S2000x300_1_0_0_1_n_n.rhsIdx_val_of_single rfl i q
theorem dot_S2000x300_S300x300_S2000x300_1_0_0_1_n_n_r1 (i : S2000x300.Idx) (q : dot_S2000x300_S300x300_S2000x300_1_0_0_1_n_n.contr.Idx) : (dot_S2000x300_S300x300_S2000x300_1_0_0_1_n_n.rhsIdx i q 1).val = (i 1).val := by
  unfold DotDims.rhsIdx
  rw [dif_neg (show ¬(1 : Fin S300x300.rank) ∈ dot_S2000x300_S300x300_S2000x300_1_0_0_1_n_n.rhsBatch by decide), dif_pos (show (1 : Fin S300x300.rank) ∈ dot_S2000x300_S300x300_S2000x300_1_0_0_1_n_n.rhsNonContracting by decide)]
  rfl
/-- The product into the zero splat at (p, q): row p of the left operand against column q of the right one. -/
theorem dot_S2000x300_S300x300_S2000x300_1_0_0_1_n_n_mm {φ₁ φ₂ : FTy} (x : FVec Ideal S2000x300 φ₁) (w : FVec Ideal S300x300 φ₂) (p : Fin 2000) (q : Fin 300) :
    matmul dot_S2000x300_S300x300_S2000x300_1_0_0_1_n_n none x w (constant (F := Ideal) S2000x300 .f32 0x00000000#32) (ix2 p q) = ∑ k : Fin 300, x (ix2 p k) * w (ix2 k q) :=
  MatmulIx.matmul_zero_ix2 dot_S2000x300_S300x300_S2000x300_1_0_0_1_n_n rfl rfl dot_S2000x300_S300x300_S2000x300_1_0_0_1_n_n_l0 dot_S2000x300_S300x300_S2000x300_1_0_0_1_n_n_l1 dot_S2000x300_S300x300_S2000x300_1_0_0_1_n_n_r0 dot_S2000x300_S300x300_S2000x300_1_0_0_1_n_n_r1 none x w p q

theorem dot_S2000x133_S133x300_S2000x300_1_0_0_1_n_n_l0 (i : S2000x300.Idx) (q : dot_S2000x133_S133x300_S2000x300_1_0_0_1_n_n.contr.Idx) : (dot_S2000x133_S133x300_S2000x300_1_0_0_1_n_n.lhsIdx i q 0).val = (i 0).val := by
  unfold DotDims.lhsIdx
  rw [dif_neg (show ¬(0 : Fin S2000x133.rank) ∈ dot_S2000x133_S133x300_S2000x300_1_0_0_1_n_n.lhsBatch by decide), dif_pos (show (0 : Fin S2000x133.rank) ∈ dot_S2000x133_S133x300_S2000x300_1_0_0_1_n_n.lhsNonContracting by decide)]
  rfl
theorem dot_S2000x133_S133x300_S2000x300_1_0_0_1_n_n_l1 (i : S2000x300.Idx) (q : dot_S2000x133_S133x300_S2000x300_1_0_0_1_n_n.contr.Idx) : (dot_S2000x133_S133x300_S2000x300_1_0_0_1_n_n.lhsIdx i q 1).val = (q ⟨0, by decide⟩).val :=
  dot_S2000x133_S133x300_S2000x300_1_0_0_1_n_n.lhsIdx_val_of_single rfl i q
theorem dot_S2000x133_S133x300_S2000x300_1_0_0_1_n_n_r0 (i : S2000x300.Idx) (q : dot_S2000x133_S133x300_S2000x300_1_0_0_1_n_n.contr.Idx) : (dot_S2000x133_S133x300_S2000x300_1_0_0_1_n_n.rhsIdx i q 0).val = (q ⟨0, by decide⟩).val :=
  dot_S2000x133_S133x300_S2000x300_1_0_0_1_n_n.rhsIdx_val_of_single rfl i q
theorem dot_S2000x133_S133x300_S2000x300_1_0_0_1_n_n_r1 (i : S2000x300.Idx) (q : dot_S2000x133_S133x300_S2000x300_1_0_0_1_n_n.contr.Idx) : (dot_S2000x133_S133x300_S2000x300_1_0_0_1_n_n.rhsIdx i q 1).val = (i 1).val := by
  unfold DotDims.rhsIdx
  rw [dif_neg (show ¬(1 : Fin S133x300.rank) ∈ dot_S2000x133_S133x300_S2000x300_1_0_0_1_n_n.rhsBatch by decide), dif_pos (show (1 : Fin S133x300.rank) ∈ dot_S2000x133_S133x300_S2000x300_1_0_0_1_n_n.rhsNonContracting by decide)]
  rfl
/-- The product into the zero splat at (p, q): row p of the left operand against column q of the right one. -/
theorem dot_S2000x133_S133x300_S2000x300_1_0_0_1_n_n_mm {φ₁ φ₂ : FTy} (x : FVec Ideal S2000x133 φ₁) (w : FVec Ideal S133x300 φ₂) (p : Fin 2000) (q : Fin 300) :
    matmul dot_S2000x133_S133x300_S2000x300_1_0_0_1_n_n none x w (constant (F := Ideal) S2000x300 .f32 0x00000000#32) (ix2 p q) = ∑ k : Fin 133, x (ix2 p k) * w (ix2 k q) :=
  MatmulIx.matmul_zero_ix2 dot_S2000x133_S133x300_S2000x300_1_0_0_1_n_n rfl rfl dot_S2000x133_S133x300_S2000x300_1_0_0_1_n_n_l0 dot_S2000x133_S133x300_S2000x300_1_0_0_1_n_n_l1 dot_S2000x133_S133x300_S2000x300_1_0_0_1_n_n_r0 dot_S2000x133_S133x300_S2000x300_1_0_0_1_n_n_r1 none x w p q

/-- A one-row bias spread over the 2000 rows reads, at (p, q), the bias at (0, q). -/
theorem bias_apply (b : S1x300.Idx → EReal) (p : Fin 2000) (q : Fin 300) :
    broadcastTo S2000x300 (shapeCast S1x300 b shapeCasts_S1x300_S1x300) broadcasts_S1x300_S2000x300 (ix2 p q) = b (ix2 (0 : Fin 1) q) := by
  rw [shapeCast_self]
  refine broadcastTo_apply b broadcasts_S1x300_S2000x300 (ix2 p q) (ix2 (0 : Fin 1) q) fun ax => ?_
  match ax with
  | ⟨0, _⟩ => rfl
  | ⟨1, _⟩ => rfl

/-- The input layer's block at (p, q). -/
theorem pay0_apply (x : Vec Ideal S2000x147 .f32) (w : Vec Ideal S147x300 .f32) (b : Vec Ideal S1x300 .f32) (p : Fin 2000) (q : Fin 300) :
    (k0_pay1 (F := Ideal) x w b (ix2 p q) : EReal) = (∑ k : Fin 147, (x (ix2 p k) : EReal) * w (ix2 k q)) + b (ix2 (0 : Fin 1) q) := by
  unfold k0_pay1
  show (matmul dot_S2000x147_S147x300_S2000x300_1_0_0_1_n_n none (truncf .bf16 x bitsLt_bf16_f32) (truncf .bf16 w bitsLt_bf16_f32) (constant (F := Ideal) S2000x300 .f32 0x00000000#32) (ix2 p q) : EReal)
      + broadcastTo S2000x300 (shapeCast S1x300 b shapeCasts_S1x300_S1x300) broadcasts_S1x300_S2000x300 (ix2 p q) = _
  rw [dot_S2000x147_S147x300_S2000x300_1_0_0_1_n_n_mm, bias_apply]
  rfl

/-- The update layer's block at (p, q) (the same text serves both update launches). -/
theorem pay1_apply (mg : Vec Ideal S2000x300 .bf16) (w : Vec Ideal S300x300 .f32) (cu : Vec Ideal S2000x300 .bf16) (b : Vec Ideal S1x300 .f32) (p : Fin 2000) (q : Fin 300) :
    (k1_pay1 (F := Ideal) mg w cu b (ix2 p q) : EReal) = ((cu (ix2 p q) : EReal) + ∑ k : Fin 300, (mg (ix2 p k) : EReal) * w (ix2 k q)) + b (ix2 (0 : Fin 1) q) := by
  unfold k1_pay1
  show ((shapeCast S2000x300 cu shapeCasts_S2000x300_S2000x300 (ix2 p q) : EReal)
      + matmul dot_S2000x300_S300x300_S2000x300_1_0_0_1_n_n none (shapeCast S2000x300 mg shapeCasts_S2000x300_S2000x300) (truncf .bf16 w bitsLt_bf16_f32) (constant (F := Ideal) S2000x300 .f32 0x00000000#32) (ix2 p q))
      + broadcastTo S2000x300 (shapeCast S1x300 b shapeCasts_S1x300_S1x300) broadcasts_S1x300_S2000x300 (ix2 p q) = _
  rw [dot_S2000x300_S300x300_S2000x300_1_0_0_1_n_n_mm, bias_apply, shapeCast_self, shapeCast_self]
  rfl

theorem pay2_apply (mg : Vec Ideal S2000x300 .bf16) (w : Vec Ideal S300x300 .f32) (cu : Vec Ideal S2000x300 .bf16) (b : Vec Ideal S1x300 .f32) (p : Fin 2000) (q : Fin 300) :
    (k2_pay1 (F := Ideal) mg w cu b (ix2 p q) : EReal) = ((cu (ix2 p q) : EReal) + ∑ k : Fin 300, (mg (ix2 p k) : EReal) * w (ix2 k q)) + b (ix2 (0 : Fin 1) q) :=
  pay1_apply mg w cu b p q

/-- The output layer's block at (p, q). -/
theorem pay3_apply (f : Vec Ideal S2000x133 .f32) (a : Vec Ideal S2000x300 .bf16) (wt : Vec Ideal S133x300 .f32) (wb : Vec Ideal S300x300 .f32) (b : Vec Ideal S1x300 .f32) (p : Fin 2000) (q : Fin 300) :
    (k3_pay1 (F := Ideal) f a wt wb b (ix2 p q) : EReal)
      = max (((∑ k : Fin 133, (f (ix2 p k) : EReal) * wt (ix2 k q)) + ∑ k : Fin 300, (a (ix2 p k) : EReal) * wb (ix2 k q)) + b (ix2 (0 : Fin 1) q)) (Ideal.ofBits .f32 0x00000000#32) := by
  unfold k3_pay1
  show max (((matmul dot_S2000x133_S133x300_S2000x300_1_0_0_1_n_n none (truncf .bf16 f bitsLt_bf16_f32) (truncf .bf16 (shapeCast S133x300 wt shapeCasts_S133x300_S133x300) bitsLt_bf16_f32) (constant (F := Ideal) S2000x300 .f32 0x00000000#32) (ix2 p q) : EReal)
      + matmul dot_S2000x300_S300x300_S2000x300_1_0_0_1_n_n none (shapeCast S2000x300 a shapeCasts_S2000x300_S2000x300) (truncf .bf16 (shapeCast S300x300 wb shapeCasts_S300x300_S300x300) bitsLt_bf16_f32) (constant (F := Ideal) S2000x300 .f32 0x00000000#32) (ix2 p q))
      + broadcastTo S2000x300 (shapeCast S1x300 b shapeCasts_S1x300_S1x300) broadcasts_S1x300_S2000x300 (ix2 p q)) (Ideal.ofBits .f32 0x00000000#32) = _
  rw [dot_S2000x133_S133x300_S2000x300_1_0_0_1_n_n_mm, dot_S2000x300_S300x300_S2000x300_1_0_0_1_n_n_mm, bias_apply, shapeCast_self, shapeCast_self, shapeCast_self]
  rfl

end Cert.KernelIdeal.Bodies

end
-- ==== Proof.Reg0.lean ====
/-
  The first launch (the input layer), from blocks to the whole array.  Grid point t takes rows 2000·t … 2000·t + 1999
  of the bond features, the whole weight matrix and the whole one-row bias, and writes back rows 2000·t … of the
  output; the hundred row blocks tile the 200000 rows.  So, whatever the TensorCore's buffers hold when the launch is
  entered, the output array ends as one function of the three operand arrays:
      (p, q)  ↦  Σ_k x(p,k)·W(k,q) + b(0,q).
-/
import proofs.«162405_j3478923510262_2_alg».proof.Proof.Gen.KernelIdeal.Frame
import proofs.«162405_j3478923510262_2_alg».proof.Proof.Bodies

set_option maxRecDepth 16384

noncomputable section

namespace Cert.KernelIdeal.Reg0

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The input layer over whole arrays: entry (p, q) is row p of x against column q of W, plus the bias of column q. -/
def lin (x : S200000x147.Idx → EReal) (w : S147x300.Idx → EReal) (b : S1x300.Idx → EReal) : S200000x300.Idx → EReal :=
  fun i => (∑ k : Fin 147, x (ix2 (⟨(i 0).val, (i 0).isLt⟩ : Fin 200000) k) * w (ix2 k (⟨(i 1).val, (i 1).isLt⟩ : Fin 300)))
    + b (ix2 (0 : Fin 1) (⟨(i 1).val, (i 1).isLt⟩ : Fin 300))

/-- A block's entry is the whole array's: if the block's operands at (p, ·), (·, q), (0, q) are the arrays' at the
    row and column of the array index i, the block's sum is `lin` at i. -/
theorem lin_block (X : S200000x147.Idx → EReal) (W : S147x300.Idx → EReal) (B : S1x300.Idx → EReal)
    (x : S2000x147.Idx → EReal) (w : S147x300.Idx → EReal) (b : S1x300.Idx → EReal) (i : S200000x300.Idx) (p : Fin 2000) (q : Fin 300)
    (hx : ∀ k : Fin 147, x (ix2 p k) = X (ix2 (⟨(i 0).val, (i 0).isLt⟩ : Fin 200000) k))
    (hw : ∀ k : Fin 147, w (ix2 k q) = W (ix2 k (⟨(i 1).val, (i 1).isLt⟩ : Fin 300)))
    (hb : b (ix2 (0 : Fin 1) q) = B (ix2 (0 : Fin 1) (⟨(i 1).val, (i 1).isLt⟩ : Fin 300))) :
    (∑ k : Fin 147, x (ix2 p k) * w (ix2 k q)) + b (ix2 (0 : Fin 1) q) = lin X W B i := by
  unfold lin
  rw [hb]
  simp only [hx, hw]

/-- The index maps over the grid: the row-blocked windows sit at block t, the whole-array windows at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point t writes back is block t of `lin` of the operand arrays as the launch finds them. -/
theorem flushed_eq (c : Dev nD) (t : Fin cfg0.N) :
    (dat0 V c).flushed 3 t = ((cfg0.win 3).blk t).view.read (Elt Ideal) (lin (V c main_arg1) (V c main_arg6) (V c main_v0)) := by
  show (cfg0.win 3).cut (grid0.coords t) ((dat0 V c).after 3 t) = _
  rw [after0_3]
  unfold out0_3
  rw [View.canon_unit_zero hz]
  simp only [View.ld_unit_zero (S := S2000x147) hz, View.ld_unit_zero (S := S147x300) hz, View.ld_unit_zero (S := S1x300) hz]
  obtain ⟨e0, e1, e2, e3, e4, e5, e6, e7⟩ := idx_facts t
  funext j
  obtain ⟨p, q, rfl⟩ : ∃ (p : Fin 2000) (q : Fin 300), (j : S2000x300.Idx) = ix2 p q := ⟨j 0, j 1, eq_ix2 j⟩
  refine (Bodies.pay0_apply (iblk0 V c 0 t) (iblk0 V c 1 t) (iblk0 V c 2 t) p q).trans ?_
  refine lin_block (V c main_arg1) (V c main_arg6) (V c main_v0) (iblk0 V c 0 t) (iblk0 V c 1 t) (iblk0 V c 2 t)
    (((cfg0.win 3).blk t).view.emb (ix2 p q)) p q (fun k => ?_) (fun k => ?_) ?_
  · refine congrArg (V c main_arg1) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 147 + 1 * k.val = k.val; omega
  · refine congrArg (V c main_arg6) (funext fun a => Fin.ext ?_)
    match a with
    | ⟨0, _⟩ => show win0_1.index t (0 : Fin 2) * 147 + 1 * k.val = k.val; omega
    | ⟨1, _⟩ => show win0_1.index t (1 : Fin 2) * 300 + 1 * q.val = win0_3.index t (1 : Fin 2) * 300 + 1 * q.val; omega
  · refine congrArg (V c main_v0) (funext fun a => Fin.ext ?_)
    match a with
    | ⟨0, _⟩ => show win0_2.index t (0 : Fin 2) * 1 + 1 * 0 = 0; omega
    | ⟨1, _⟩ => show win0_2.index t (1 : Fin 2) * 300 + 1 * q.val = win0_3.index t (1 : Fin 2) * 300 + 1 * q.val; omega

/-- An index of the array is in point t's block iff each coordinate is in the block's range on its axis. -/
theorem mem_blk (t : Fin cfg0.N) (i : S200000x300.Idx) :
    i ∈ ((cfg0.win 3).blk t).view.set ↔ ∀ a : Fin 2, win0_3.index t a * S2000x300.size a ≤ (i a).val ∧ (i a).val < win0_3.index t a * S2000x300.size a + S2000x300.size a := by
  show i ∈ ((View.whole main_v1).slice (win0_3.rect t)).set ↔ _
  rw [View.set_slice_whole, Rect.mem_set_unit]
  exact Iff.rfl

/-- Row r lies in the block of point r / 2000. -/
theorem cover (i : S200000x300.Idx) : ∃ t : Fin cfg0.N, (cfg0.win 3).flush t = true ∧ i ∈ ((cfg0.win 3).blk t).view.set := by
  have hN : grid0.N = 100 := N_0
  have hi0 : (i 0).val < 200000 := (i 0).isLt
  have hi1 : (i 1).val < 300 := (i 1).isLt
  let t : Fin cfg0.N := ⟨(i 0).val / 2000, by show (i 0).val / 2000 < grid0.N; omega⟩
  obtain ⟨e0, e1, e2, e3, e4, e5, e6, e7⟩ := idx_facts t
  have ht : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 300 ≤ (i 1).val ∧ (i 1).val < win0_3.index t (1 : Fin 2) * 300 + 300; omega

/-- The output array after the launch. -/
theorem final (c : Dev nD) : (dat0 V c).arrAt 3 cfg0.N = lin (V c main_arg1) (V c main_arg6) (V c main_v0) :=
  (dat0 V c).arrAt_eq_of_cover 3 (lin (V c main_arg1) (V c main_arg6) (V c main_v0)) (fun t _ => flushed_eq V c t) cover

end Cert.KernelIdeal.Reg0

end
-- ==== Proof.Upd.lean ====
/-
  The update layer over whole arrays, and the fact that lets a 2000-row block be read as rows of it.
-/
import proofs.«162405_j3478923510262_2_alg».proof.Proof.Gen.KernelIdeal
import Idealize.ShloMosaic.Lib.ValueIdx
import Idealize.ShloMosaic.PureOps.Ideal

noncomputable section

namespace Cert.KernelIdeal.Upd

open Cert.KernelIdeal Idealize.ShloMosaic Idealize.ShloMosaic.ValueIdx

/-- The update layer: entry (p, q) is the carried value plus row p of the messages against column q of W, plus the bias. -/
def upd (mg cu : S200000x300.Idx → EReal) (w : S300x300.Idx → EReal) (b : S1x300.Idx → EReal) : S200000x300.Idx → EReal :=
  fun i => (cu (ix2 (⟨(i 0).val, (i 0).isLt⟩ : Fin 200000) (⟨(i 1).val, (i 1).isLt⟩ : Fin 300))
      + ∑ k : Fin 300, mg (ix2 (⟨(i 0).val, (i 0).isLt⟩ : Fin 200000) k) * w (ix2 k (⟨(i 1).val, (i 1).isLt⟩ : Fin 300)))
    + b (ix2 (0 : Fin 1) (⟨(i 1).val, (i 1).isLt⟩ : Fin 300))

/-- A block's entry is the whole array's: if the block's operands are the arrays' at the row and column of the array
    index i, the block's value is `upd` at i. -/
theorem upd_block (MG CU : S200000x300.Idx → EReal) (W : S300x300.Idx → EReal) (B : S1x300.Idx → EReal)
    (mg cu : S2000x300.Idx → EReal) (w : S300x300.Idx → EReal) (b : S1x300.Idx → EReal) (i : S200000x300.Idx) (p : Fin 2000) (q : Fin 300)
    (hm : ∀ k : Fin 300, mg (ix2 p k) = MG (ix2 (⟨(i 0).val, (i 0).isLt⟩ : Fin 200000) k))
    (hc : cu (ix2 p q) = CU (ix2 (⟨(i 0).val, (i 0).isLt⟩ : Fin 200000) (⟨(i 1).val, (i 1).isLt⟩ : Fin 300)))
    (hw : ∀ k : Fin 300, w (ix2 k q) = W (ix2 k (⟨(i 1).val, (i 1).isLt⟩ : Fin 300)))
    (hb : b (ix2 (0 : Fin 1) q) = B (ix2 (0 : Fin 1) (⟨(i 1).val, (i 1).isLt⟩ : Fin 300))) :
    (cu (ix2 p q) + ∑ k : Fin 300, mg (ix2 p k) * w (ix2 k q)) + b (ix2 (0 : Fin 1) q) = upd MG CU W B i := by
  unfold upd
  rw [hb, hc]
  simp only [hm, hw]

end Cert.KernelIdeal.Upd

end
-- ==== Proof.Reg1.lean ====
/-
  An update launch, from blocks to the whole array.  Grid point t takes rows 2000·t … 2000·t + 1999 of the message array
  and of the input layer's output, the whole weight matrix and the whole one-row bias, and writes back the same rows of
  the output; the hundred row blocks tile the 200000 rows.  So the output array ends as one function of the four operand
  arrays as the launch finds them:
      (p, q)  ↦  (c(p,q) + Σ_k m(p,k)·W(k,q)) + b(0,q).
-/
import proofs.«162405_j3478923510262_2_alg».proof.Proof.Gen.KernelIdeal.Frame
import proofs.«162405_j3478923510262_2_alg».proof.Proof.Bodies
import proofs.«162405_j3478923510262_2_alg».proof.Proof.Upd

set_option maxRecDepth 16384

noncomputable section

namespace Cert.KernelIdeal.Reg1

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.KernelIdeal.Upd (upd upd_block)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block t, the whole-array windows at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point t writes back is block t of `upd` of the operand arrays as the launch finds them. -/
theorem flushed_eq (c : Dev nD) (t : Fin cfg1.N) :
    (dat1 V c).flushed 4 t = ((cfg1.win 4).blk t).view.read (Elt Ideal) (upd (V c main_v29) (V c main_v1) (V c main_arg8) (V c main_v30)) := by
  show (cfg1.win 4).cut (grid1.coords t) ((dat1 V c).after 4 t) = _
  rw [after1_4]
  unfold out1_4
  rw [View.canon_unit_zero hz]
  simp only [View.ld_unit_zero (S := S2000x300) hz, View.ld_unit_zero (S := S300x300) hz, View.ld_unit_zero (S := S1x300) hz]
  obtain ⟨e0, e1, e2, e3, e4, e5, e6, e7, e8, e9⟩ := idx_facts t
  funext j
  obtain ⟨p, q, rfl⟩ : ∃ (p : Fin 2000) (q : Fin 300), (j : S2000x300.Idx) = ix2 p q := ⟨j 0, j 1, eq_ix2 j⟩
  refine (Bodies.pay1_apply (iblk1 V c 0 t) (iblk1 V c 2 t) (iblk1 V c 1 t) (iblk1 V c 3 t) p q).trans ?_
  refine upd_block (V c main_v29) (V c main_v1) (V c main_arg8) (V c main_v30) (iblk1 V c 0 t) (iblk1 V c 1 t) (iblk1 V c 2 t) (iblk1 V c 3 t)
    (((cfg1.win 4).blk t).view.emb (ix2 p q)) p q (fun k => ?_) ?_ (fun k => ?_) ?_
  · refine congrArg (V c main_v29) (funext fun a => Fin.ext ?_)
    match a with
    | ⟨0, _⟩ => show win1_0.index t (0 : Fin 2) * 2000 + 1 * p.val = win1_4.index t (0 : Fin 2) * 2000 + 1 * p.val; omega
    | ⟨1, _⟩ => show win1_0.index t (1 : Fin 2) * 300 + 1 * k.val = k.val; omega
  · refine congrArg (V c main_v1) (funext fun a => Fin.ext ?_)
    match a with
    | ⟨0, _⟩ => show win1_1.index t (0 : Fin 2) * 2000 + 1 * p.val = win1_4.index t (0 : Fin 2) * 2000 + 1 * p.val; omega
    | ⟨1, _⟩ => show win1_1.index t (1 : Fin 2) * 300 + 1 * q.val = win1_4.index t (1 : Fin 2) * 300 + 1 * q.val; omega
  · refine congrArg (V c main_arg8) (funext fun a => Fin.ext ?_)
    match a with
    | ⟨0, _⟩ => show win1_2.index t (0 : Fin 2) * 300 + 1 * k.val = k.val; omega
    | ⟨1, _⟩ => show win1_2.index t (1 : Fin 2) * 300 + 1 * q.val = win1_4.index t (1 : Fin 2) * 300 + 1 * q.val; omega
  · refine congrArg (V c main_v30) (funext fun a => Fin.ext ?_)
    match a with
    | ⟨0, _⟩ => show win1_3.index t (0 : Fin 2) * 1 + 1 * 0 = 0; omega
    | ⟨1, _⟩ => show win1_3.index t (1 : Fin 2) * 300 + 1 * q.val = win1_4.index t (1 : Fin 2) * 300 + 1 * q.val; omega

/-- An index of the array is in point t's block iff each coordinate is in the block's range on its axis. -/
theorem mem_blk (t : Fin cfg1.N) (i : S200000x300.Idx) :
    i ∈ ((cfg1.win 4).blk t).view.set ↔ ∀ a : Fin 2, win1_4.index t a * S2000x300.size a ≤ (i a).val ∧ (i a).val < win1_4.index t a * S2000x300.size a + S2000x300.size a := by
  show i ∈ ((View.whole main_v31).slice (win1_4.rect t)).set ↔ _
  rw [View.set_slice_whole, Rect.mem_set_unit]
  exact Iff.rfl

/-- Row r lies in the block of point r / 2000. -/
theorem cover (i : S200000x300.Idx) : ∃ t : Fin cfg1.N, (cfg1.win 4).flush t = true ∧ i ∈ ((cfg1.win 4).blk t).view.set := by
  have hN : grid1.N = 100 := N_1
  have hi0 : (i 0).val < 200000 := (i 0).isLt
  have hi1 : (i 1).val < 300 := (i 1).isLt
  let t : Fin cfg1.N := ⟨(i 0).val / 2000, by show (i 0).val / 2000 < grid1.N; omega⟩
  obtain ⟨e0, e1, e2, e3, e4, e5, e6, e7, e8, e9⟩ := idx_facts t
  have ht : t.val = (i 0).val / 2000 := rfl
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 300 ≤ (i 1).val ∧ (i 1).val < win1_4.index t (1 : Fin 2) * 300 + 300; omega

/-- The output array after the launch. -/
theorem final (c : Dev nD) : (dat1 V c).arrAt 4 cfg1.N = upd (V c main_v29) (V c main_v1) (V c main_arg8) (V c main_v30) :=
  (dat1 V c).arrAt_eq_of_cover 4 (upd (V c main_v29) (V c main_v1) (V c main_arg8) (V c main_v30)) (fun t _ => flushed_eq V c t) cover

end Cert.KernelIdeal.Reg1

end
-- ==== Proof.Reg2.lean ====
/-
  An update launch, from blocks to the whole array.  Grid point t takes rows 2000·t … 2000·t + 1999 of the message array
  and of the input layer's output, the whole weight matrix and the whole one-row bias, and writes back the same rows of
  the output; the hundred row blocks tile the 200000 rows.  So the output array ends as one function of the four operand
  arrays as the launch finds them:
      (p, q)  ↦  (c(p,q) + Σ_k m(p,k)·W(k,q)) + b(0,q).
-/
import proofs.«162405_j3478923510262_2_alg».proof.Proof.Gen.KernelIdeal.Frame
import proofs.«162405_j3478923510262_2_alg».proof.Proof.Bodies
import proofs.«162405_j3478923510262_2_alg».proof.Proof.Upd

set_option maxRecDepth 16384

noncomputable section

namespace Cert.KernelIdeal.Reg2

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.KernelIdeal.Upd (upd upd_block)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block t, the whole-array windows at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What grid point t writes back is block t of `upd` of the operand arrays as the launch finds them. -/
theorem flushed_eq (c : Dev nD) (t : Fin cfg2.N) :
    (dat2 V c).flushed 4 t = ((cfg2.win 4).blk t).view.read (Elt Ideal) (upd (V c main_v59) (V c main_v1) (V c main_arg8) (V c main_v60)) := by
  show (cfg2.win 4).cut (grid2.coords t) ((dat2 V c).after 4 t) = _
  rw [after2_4]
  unfold out2_4
  rw [View.canon_unit_zero hz]
  simp only [View.ld_unit_zero (S := S2000x300) hz, View.ld_unit_zero (S := S300x300) hz, View.ld_unit_zero (S := S1x300) hz]
  obtain ⟨e0, e1, e2, e3, e4, e5, e6, e7, e8, e9⟩ := idx_facts t
  funext j
  obtain ⟨p, q, rfl⟩ : ∃ (p : Fin 2000) (q : Fin 300), (j : S2000x300.Idx) = ix2 p q := ⟨j 0, j 1, eq_ix2 j⟩
  refine (Bodies.pay2_apply (iblk2 V c 0 t) (iblk2 V c 2 t) (iblk2 V c 1 t) (iblk2 V c 3 t) p q).trans ?_
  refine upd_block (V c main_v59) (V c main_v1) (V c main_arg8) (V c main_v60) (iblk2 V c 0 t) (iblk2 V c 1 t) (iblk2 V c 2 t) (iblk2 V c 3 t)
    (((cfg2.win 4).blk t).view.emb (ix2 p q)) p q (fun k => ?_) ?_ (fun k => ?_) ?_
  · refine congrArg (V c main_v59) (funext fun a => Fin.ext ?_)
    match a with
    | ⟨0, _⟩ => show win2_0.index t (0 : Fin 2) * 2000 + 1 * p.val = win2_4.index t (0 : Fin 2) * 2000 + 1 * p.val; omega
    | ⟨1, _⟩ => show win2_0.index t (1 : Fin 2) * 300 + 1 * k.val = k.val; omega
  · refine congrArg (V c main_v1) (funext fun a => Fin.ext ?_)
    match a with
    | ⟨0, _⟩ => show win2_1.index t (0 : Fin 2) * 2000 + 1 * p.val = win2_4.index t (0 : Fin 2) * 2000 + 1 * p.val; omega
    | ⟨1, _⟩ => show win2_1.index t (1 : Fin 2) * 300 + 1 * q.val = win2_4.index t (1 : Fin 2) * 300 + 1 * q.val; omega
  · refine congrArg (V c main_arg8) (funext fun a => Fin.ext ?_)
    match a with
    | ⟨0, _⟩ => show win2_2.index t (0 : Fin 2) * 300 + 1 * k.val = k.val; omega
    | ⟨1, _⟩ => show win2_2.index t (1 : Fin 2) * 300 + 1 * q.val = win2_4.index t (1 : Fin 2) * 300 + 1 * q.val; omega
  · refine congrArg (V c main_v60) (funext fun a => Fin.ext ?_)
    match a with
    | ⟨0, _⟩ => show win2_3.index t (0 : Fin 2) * 1 + 1 * 0 = 0; omega
    | ⟨1, _⟩ => show win2_3.index t (1 : Fin 2) * 300 + 1 * q.val = win2_4.index t (1 : Fin 2) * 300 + 1 * q.val; omega

/-- An index of the array is in point t's block iff each coordinate is in the block's range on its axis. -/
theorem mem_blk (t : Fin cfg2.N) (i : S200000x300.Idx) :
    i ∈ ((cfg2.win 4).blk t).view.set ↔ ∀ a : Fin 2, win2_4.index t a * S2000x300.size a ≤ (i a).val ∧ (i a).val < win2_4.index t a * S2000x300.size a + S2000x300.size a := by
  show i ∈ ((View.whole main_v61).slice (win2_4.rect t)).set ↔ _
  rw [View.set_slice_whole, Rect.mem_set_unit]
  exact Iff.rfl

/-- Row r lies in the block of point r / 2000. -/
theorem cover (i : S200000x300.Idx) : ∃ t : Fin cfg2.N, (cfg2.win 4).flush t = true ∧ i ∈ ((cfg2.win 4).blk t).view.set := by
  have hN : grid2.N = 100 := N_2
  have hi0 : (i 0).val < 200000 := (i 0).isLt
  have hi1 : (i 1).val < 300 := (i 1).isLt
  let t : Fin cfg2.N := ⟨(i 0).val / 2000, by show (i 0).val / 2000 < grid2.N; omega⟩
  obtain ⟨e0, e1, e2, e3, e4, e5, e6, e7, e8, e9⟩ := idx_facts t
  have ht : t.val = (i 0).val / 2000 := rfl
  refine ⟨t, flush2_4 t, ?_⟩
  rw [mem_blk]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 300 ≤ (i 1).val ∧ (i 1).val < win2_4.index t (1 : Fin 2) * 300 + 300; omega

/-- The output array after the launch. -/
theorem final (c : Dev nD) : (dat2 V c).arrAt 4 cfg2.N = upd (V c main_v59) (V c main_v1) (V c main_arg8) (V c main_v60) :=
  (dat2 V c).arrAt_eq_of_cover 4 (upd (V c main_v59) (V c main_v1) (V c main_arg8) (V c main_v60)) (fun t _ => flushed_eq V c t) cover

end Cert.KernelIdeal.Reg2

end
-- ==== Proof.Reg3.lean ====
/-
  The last launch (the output layer), from blocks to the whole array.  Grid point t takes rows 2000·t … 2000·t + 1999 of
  the atom features and of the atoms' message sums, the two whole weight matrices and the whole one-row bias, and writes
  back the same rows of the output; the fifty row blocks tile the 100000 rows.  So the output array ends as one function
  of the five operand arrays as the launch finds them:
      (p, q)  ↦  max((Σ_k f(p,k)·T(k,q) + Σ_k a(p,k)·B(k,q)) + b(0,q), 0).
-/
import proofs.«162405_j3478923510262_2_alg».proof.Proof.Gen.KernelIdeal.Frame
import proofs.«162405_j3478923510262_2_alg».proof.Proof.Bodies

set_option maxRecDepth 16384

noncomputable section

namespace Cert.KernelIdeal.Reg3

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The output layer over whole arrays. -/
def fin (f : S100000x133.Idx → EReal) (a : S100000x300.Idx → EReal) (wt : S133x300.Idx → EReal) (wb : S300x300.Idx → EReal)
    (b : S1x300.Idx → EReal) : S100000x300.Idx → EReal :=
  fun i => max (((∑ k : Fin 133, f (ix2 (⟨(i 0).val, (i 0).isLt⟩ : Fin 100000) k) * wt (ix2 k (⟨(i 1).val, (i 1).isLt⟩ : Fin 300)))
      + ∑ k : Fin 300, a (ix2 (⟨(i 0).val, (i 0).isLt⟩ : Fin 100000) k) * wb (ix2 k (⟨(i 1).val, (i 1).isLt⟩ : Fin 300)))
    + b (ix2 (0 : Fin 1) (⟨(i 1).val, (i 1).isLt⟩ : Fin 300))) (Ideal.ofBits .f32 0x00000000#32)

/-- A block's entry is the whole array's. -/
theorem fin_block (Fa : S100000x133.Idx → EReal) (Am : S100000x300.Idx → EReal) (WT : S133x300.Idx → EReal) (WB : S300x300.Idx → EReal) (B : S1x300.Idx → EReal)
    (f : S2000x133.Idx → EReal) (a : S2000x300.Idx → EReal) (wt : S133x300.Idx → EReal) (wb : S300x300.Idx → EReal) (b : S1x300.Idx → EReal)
    (i : S100000x300.Idx) (p : Fin 2000) (q : Fin 300)
    (hf : ∀ k : Fin 133, f (ix2 p k) = Fa (ix2 (⟨(i 0).val, (i 0).isLt⟩ : Fin 100000) k))
    (ha : ∀ k : Fin 300, a (ix2 p k) = Am (ix2 (⟨(i 0).val, (i 0).isLt⟩ : Fin 100000) k))
    (ht : ∀ k : Fin 133, wt (ix2 k q) = WT (ix2 k (⟨(i 1).val, (i 1).isLt⟩ : Fin 300)))
    (hw : ∀ k : Fin 300, wb (ix2 k q) = WB (ix2 k (⟨(i 1).val, (i 1).isLt⟩ : Fin 300)))
    (hb : b (ix2 (0 : Fin 1) q) = B (ix2 (0 : Fin 1) (⟨(i 1).val, (i 1).isLt⟩ : Fin 300))) :
    max (((∑ k : Fin 133, f (ix2 p k) * wt (ix2 k q)) + ∑ k : Fin 300, a (ix2 p k) * wb (ix2 k q)) + b (ix2 (0 : Fin 1) q)) (Ideal.ofBits .f32 0x00000000#32)
      = fin Fa Am WT WB B i := by
  unfold fin
  rw [hb]
  simp only [hf, ha, ht, hw]

/-- The index maps over the grid: the row-blocked windows sit at block t, the whole-array windows at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What grid point t writes back is block t of `fin` of the operand arrays as the launch finds them. -/
theorem flushed_eq (c : Dev nD) (t : Fin cfg3.N) :
    (dat3 V c).flushed 5 t = ((cfg3.win 5).blk t).view.read (Elt Ideal) (fin (V c main_arg0) (V c main_v72) (V c main_v73) (V c main_v74) (V c main_v75)) := by
  show (cfg3.win 5).cut (grid3.coords t) ((dat3 V c).after 5 t) = _
  rw [after3_5]
  unfold out3_5
  rw [View.canon_unit_zero hz]
  simp only [View.ld_unit_zero (S := S2000x133) hz, View.ld_unit_zero (S := S2000x300) hz, View.ld_unit_zero (S := S133x300) hz,
    View.ld_unit_zero (S := S300x300) hz, View.ld_unit_zero (S := S1x300) hz]
  obtain ⟨e0, e1, e2, e3, e4, e5, e6, e7, e8, e9, e10, e11⟩ := idx_facts t
  funext j
  obtain ⟨p, q, rfl⟩ : ∃ (p : Fin 2000) (q : Fin 300), (j : S2000x300.Idx) = ix2 p q := ⟨j 0, j 1, eq_ix2 j⟩
  refine (Bodies.pay3_apply (iblk3 V c 0 t) (iblk3 V c 1 t) (iblk3 V c 2 t) (iblk3 V c 3 t) (iblk3 V c 4 t) p q).trans ?_
  refine fin_block (V c main_arg0) (V c main_v72) (V c main_v73) (V c main_v74) (V c main_v75)
    (iblk3 V c 0 t) (iblk3 V c 1 t) (iblk3 V c 2 t) (iblk3 V c 3 t) (iblk3 V c 4 t)
    (((cfg3.win 5).blk t).view.emb (ix2 p q)) p q (fun k => ?_) (fun k => ?_) (fun k => ?_) (fun k => ?_) ?_
  · refine congrArg (V c main_arg0) (funext fun a => Fin.ext ?_)
    match a with
    | ⟨0, _⟩ => show win3_0.index t (0 : Fin 2) * 2000 + 1 * p.val = win3_5.index t (0 : Fin 2) * 2000 + 1 * p.val; omega
    | ⟨1, _⟩ => show win3_0.index t (1 : Fin 2) * 133 + 1 * k.val = k.val; omega
  · refine congrArg (V c main_v72) (funext fun a => Fin.ext ?_)
    match a with
    | ⟨0, _⟩ => show win3_1.index t (0 : Fin 2) * 2000 + 1 * p.val = win3_5.index t (0 : Fin 2) * 2000 + 1 * p.val; omega
    | ⟨1, _⟩ => show win3_1.index t (1 : Fin 2) * 300 + 1 * k.val = k.val; omega
  · refine congrArg (V c main_v73) (funext fun a => Fin.ext ?_)
    match a with
    | ⟨0, _⟩ => show win3_2.index t (0 : Fin 2) * 133 + 1 * k.val = k.val; omega
    | ⟨1, _⟩ => show win3_2.index t (1 : Fin 2) * 300 + 1 * q.val = win3_5.index t (1 : Fin 2) * 300 + 1 * q.val; omega
  · refine congrArg (V c main_v74) (funext fun a => Fin.ext ?_)
    match a with
    | ⟨0, _⟩ => show win3_3.index t (0 : Fin 2) * 300 + 1 * k.val = k.val; omega
    | ⟨1, _⟩ => show win3_3.index t (1 : Fin 2) * 300 + 1 * q.val = win3_5.index t (1 : Fin 2) * 300 + 1 * q.val; omega
  · refine congrArg (V c main_v75) (funext fun a => Fin.ext ?_)
    match a with
    | ⟨0, _⟩ => show win3_4.index t (0 : Fin 2) * 1 + 1 * 0 = 0; omega
    | ⟨1, _⟩ => show win3_4.index t (1 : Fin 2) * 300 + 1 * q.val = win3_5.index t (1 : Fin 2) * 300 + 1 * q.val; omega

/-- An index of the array is in point t's block iff each coordinate is in the block's range on its axis. -/
theorem mem_blk (t : Fin cfg3.N) (i : S100000x300.Idx) :
    i ∈ ((cfg3.win 5).blk t).view.set ↔ ∀ a : Fin 2, win3_5.index t a * S2000x300.size a ≤ (i a).val ∧ (i a).val < win3_5.index t a * S2000x300.size a + S2000x300.size a := by
  show i ∈ ((View.whole main_v76).slice (win3_5.rect t)).set ↔ _
  rw [View.set_slice_whole, Rect.mem_set_unit]
  exact Iff.rfl

/-- Row r lies in the block of point r / 2000. -/
theorem cover (i : S100000x300.Idx) : ∃ t : Fin cfg3.N, (cfg3.win 5).flush t = true ∧ i ∈ ((cfg3.win 5).blk t).view.set := by
  have hN : grid3.N = 50 := N_3
  have hi0 : (i 0).val < 100000 := (i 0).isLt
  have hi1 : (i 1).val < 300 := (i 1).isLt
  let t : Fin cfg3.N := ⟨(i 0).val / 2000, by show (i 0).val / 2000 < grid3.N; omega⟩
  obtain ⟨e0, e1, e2, e3, e4, e5, e6, e7, e8, e9, e10, e11⟩ := idx_facts t
  have ht : t.val = (i 0).val / 2000 := rfl
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 300 ≤ (i 1).val ∧ (i 1).val < win3_5.index t (1 : Fin 2) * 300 + 300; omega

/-- The output array after the launch. -/
theorem final (c : Dev nD) : (dat3 V c).arrAt 5 cfg3.N = fin (V c main_arg0) (V c main_v72) (V c main_v73) (V c main_v74) (V c main_v75) :=
  (dat3 V c).arrAt_eq_of_cover 5 (fin (V c main_arg0) (V c main_v72) (V c main_v73) (V c main_v74) (V c main_v75)) (fun t _ => flushed_eq V c t) cover

end Cert.KernelIdeal.Reg3

end
-- ==== Proof.KValue.lean ====
/-
  The kernel program's result as one expression of its arguments.  Reading @main's segments in order: the input
  layer's output `inp`; twice, the messages of the current bond table and the update layer over them (`step`); the
  atoms' message sums of the last table, the output layer over them and the atom features (`hid`); the per-molecule
  mean (`res`).  Each launch contributes its whole-array function, each stretch of host operations its stage term.
-/
import proofs.«162405_j3478923510262_2_alg».proof.Proof.Gen.KernelIdeal.Frame
import proofs.«162405_j3478923510262_2_alg».proof.Proof.KChain
import proofs.«162405_j3478923510262_2_alg».proof.Proof.KStages
import proofs.«162405_j3478923510262_2_alg».proof.Proof.Reg0
import proofs.«162405_j3478923510262_2_alg».proof.Proof.Reg1
import proofs.«162405_j3478923510262_2_alg».proof.Proof.Reg2
import proofs.«162405_j3478923510262_2_alg».proof.Proof.Reg3

set_option maxRecDepth 16384

noncomputable section

namespace Cert.KernelIdeal.KValue

open Cert.KernelIdeal Cert.KernelIdeal.Gen Cert.KernelIdeal.Kept Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-- The input layer's output. -/
def inp : S200000x300.Idx → EReal :=
  Reg0.lin (m ((c : Thread nD τ).loc main_arg1)) (m ((c : Thread nD τ).loc main_arg6)) (shapeCast S1x300 (m ((c : Thread nD τ).loc main_arg7)) shapeCasts_S300_S1x300)

/-- One round of message passing on a bond table. -/
def step (cur : S200000x300.Idx → EReal) : S200000x300.Idx → EReal :=
  Upd.upd (Stages.msg (F := Ideal) cur (m ((c : Thread nD τ).loc main_arg2)) (m ((c : Thread nD τ).loc main_arg3)) (m ((c : Thread nD τ).loc main_arg4))) (inp m c) (m ((c : Thread nD τ).loc main_arg8)) (shapeCast S1x300 (m ((c : Thread nD τ).loc main_arg9)) shapeCasts_S300_S1x300)

/-- The atoms' hidden rows. -/
def hid : S100000x300.Idx → EReal :=
  Reg3.fin (m ((c : Thread nD τ).loc main_arg0)) (Stages.aggOut (F := Ideal) (step m c (step m c (inp m c))) (m ((c : Thread nD τ).loc main_arg2)))
    (extractStridedSlice S133x300 ![0, 0] (m ((c : Thread nD τ).loc main_arg10)) slices_S433x300_S133x300_0_0)
    (extractStridedSlice S300x300 ![133, 0] (m ((c : Thread nD τ).loc main_arg10)) slices_S433x300_S300x300_133_0)
    (shapeCast S1x300 (m ((c : Thread nD τ).loc main_arg11)) shapeCasts_S300_S1x300)

/-- The molecules' mean rows: the program's result. -/
def res : S4096x300.Idx → EReal := Stages.readout (F := Ideal) (hid m c) (m ((c : Thread nD τ).loc main_arg5))

theorem lin_congr {x x' : S200000x147.Idx → EReal} {w w' : S147x300.Idx → EReal} {b b' : S1x300.Idx → EReal}
    (hx : x = x') (hw : w = w') (hb : b = b') : Reg0.lin x w b = Reg0.lin x' w' b' := by subst hx hw hb; rfl
theorem upd_congr {g g' u u' : S200000x300.Idx → EReal} {w w' : S300x300.Idx → EReal} {b b' : S1x300.Idx → EReal}
    (hg : g = g') (hu : u = u') (hw : w = w') (hb : b = b') : Upd.upd g u w b = Upd.upd g' u' w' b' := by subst hg hu hw hb; rfl
theorem fin_congr {f f' : S100000x133.Idx → EReal} {a a' : S100000x300.Idx → EReal} {t t' : S133x300.Idx → EReal} {w w' : S300x300.Idx → EReal}
    {b b' : S1x300.Idx → EReal} (hf : f = f') (ha : a = a') (ht : t = t') (hw : w = w') (hb : b = b') :
    Reg3.fin f a t w b = Reg3.fin f' a' t' w' b' := by subst hf ha ht hw hb; rfl

/-! ## The first launch -/

theorem v0_at1 : W1 m ρ c (Proc.devRef .tc main_v0) = shapeCast S1x300 (m ((c : Thread nD τ).loc main_arg7)) shapeCasts_S300_S1x300 := by
  show StableHlo.after hostOps0 (W0 m ρ c) (Proc.devRef .tc main_v0) = _
  (open Idealize.ShloMosaic.StableHlo in after_results)
  rfl

theorem v1_at2 : W2 m ρ c (Proc.devRef .tc main_v1) = inp m c :=
  (W2_arr m ρ c 3).trans ((Reg0.final (V1 m ρ) c).trans (lin_congr (main_arg1_at1 m ρ c) (main_arg6_at1 m ρ c) (v0_at1 m ρ c)))

/-! ## The first round -/

theorem v29_at7 : W7 m ρ c (Proc.devRef .tc main_v29)
    = Stages.msg (F := Ideal) (W2 m ρ c (Proc.devRef .tc main_v1)) (W2 m ρ c (Proc.devRef .tc main_arg2)) (W2 m ρ c (Proc.devRef .tc main_arg3)) (W2 m ρ c (Proc.devRef .tc main_arg4)) := by
  show (StableHlo.after hostOps1_4 (StableHlo.after hostOps1_3 (StableHlo.after hostOps1_2 (StableHlo.after hostOps1_1 (StableHlo.after hostOps1 (W2 m ρ c)))))) (Proc.devRef .tc main_v29) = _
  (open Idealize.ShloMosaic.StableHlo in after_results_simp)
  rfl

theorem v30_at7 : W7 m ρ c (Proc.devRef .tc main_v30) = shapeCast S1x300 (W2 m ρ c (Proc.devRef .tc main_arg9)) shapeCasts_S300_S1x300 := by
  show (StableHlo.after hostOps1_4 (StableHlo.after hostOps1_3 (StableHlo.after hostOps1_2 (StableHlo.after hostOps1_1 (StableHlo.after hostOps1 (W2 m ρ c)))))) (Proc.devRef .tc main_v30) = _
  (open Idealize.ShloMosaic.StableHlo in after_results_simp)
  rfl

theorem v31_at8 : W8 m ρ c (Proc.devRef .tc main_v31) = step m c (inp m c) :=
  (W8_arr m ρ c 4).trans ((Reg1.final (V7 m ρ) c).trans (upd_congr
    ((v29_at7 m ρ c).trans (by rw [v1_at2 m ρ c, main_arg2_at2 m ρ c, main_arg3_at2 m ρ c, main_arg4_at2 m ρ c]))
    ((main_v1_at7 m ρ c).trans (v1_at2 m ρ c))
    (main_arg8_at7 m ρ c)
    ((v30_at7 m ρ c).trans (by rw [main_arg9_at2 m ρ c]))))

/-! ## The second round -/

theorem v59_at13 : W13 m ρ c (Proc.devRef .tc main_v59)
    = Stages.msg (F := Ideal) (W8 m ρ c (Proc.devRef .tc main_v31)) (W8 m ρ c (Proc.devRef .tc main_arg2)) (W8 m ρ c (Proc.devRef .tc main_arg3)) (W8 m ρ c (Proc.devRef .tc main_arg4)) := by
  show (StableHlo.after hostOps2_4 (StableHlo.after hostOps2_3 (StableHlo.after hostOps2_2 (StableHlo.after hostOps2_1 (StableHlo.after hostOps2 (W8 m ρ c)))))) (Proc.devRef .tc main_v59) = _
  (open Idealize.ShloMosaic.StableHlo in after_results_simp)
  rfl

theorem v60_at13 : W13 m ρ c (Proc.devRef .tc main_v60) = shapeCast S1x300 (W8 m ρ c (Proc.devRef .tc main_arg9)) shapeCasts_S300_S1x300 := by
  show (StableHlo.after hostOps2_4 (StableHlo.after hostOps2_3 (StableHlo.after hostOps2_2 (StableHlo.after hostOps2_1 (StableHlo.after hostOps2 (W8 m ρ c)))))) (Proc.devRef .tc main_v60) = _
  (open Idealize.ShloMosaic.StableHlo in after_results_simp)
  rfl

theorem v61_at14 : W14 m ρ c (Proc.devRef .tc main_v61) = step m c (step m c (inp m c)) :=
  (W14_arr m ρ c 4).trans ((Reg2.final (V13 m ρ) c).trans (upd_congr
    ((v59_at13 m ρ c).trans (by rw [v31_at8 m ρ c, main_arg2_at8 m ρ c, main_arg3_at8 m ρ c, main_arg4_at8 m ρ c]))
    ((main_v1_at13 m ρ c).trans (v1_at2 m ρ c))
    (main_arg8_at13 m ρ c)
    ((v60_at13 m ρ c).trans (by rw [main_arg9_at8 m ρ c]))))

/-! ## The output layer -/

theorem v72_at17 : W17 m ρ c (Proc.devRef .tc main_v72) = Stages.aggOut (F := Ideal) (W14 m ρ c (Proc.devRef .tc main_v61)) (W14 m ρ c (Proc.devRef .tc main_arg2)) := by
  show (StableHlo.after hostOps3_2 (StableHlo.after hostOps3_1 (StableHlo.after hostOps3 (W14 m ρ c)))) (Proc.devRef .tc main_v72) = _
  (open Idealize.ShloMosaic.StableHlo in after_results_simp)
  rfl

theorem v73_at17 : W17 m ρ c (Proc.devRef .tc main_v73) = extractStridedSlice S133x300 ![0, 0] (W14 m ρ c (Proc.devRef .tc main_arg10)) slices_S433x300_S133x300_0_0 := by
  show (StableHlo.after hostOps3_2 (StableHlo.after hostOps3_1 (StableHlo.after hostOps3 (W14 m ρ c)))) (Proc.devRef .tc main_v73) = _
  (open Idealize.ShloMosaic.StableHlo in after_results_simp)

theorem v74_at17 : W17 m ρ c (Proc.devRef .tc main_v74) = extractStridedSlice S300x300 ![133, 0] (W14 m ρ c (Proc.devRef .tc main_arg10)) slices_S433x300_S300x300_133_0 := by
  show (StableHlo.after hostOps3_2 (StableHlo.after hostOps3_1 (StableHlo.after hostOps3 (W14 m ρ c)))) (Proc.devRef .tc main_v74) = _
  (open Idealize.ShloMosaic.StableHlo in after_results_simp)

theorem v75_at17 : W17 m ρ c (Proc.devRef .tc main_v75) = shapeCast S1x300 (W14 m ρ c (Proc.devRef .tc main_arg11)) shapeCasts_S300_S1x300 := by
  show (StableHlo.after hostOps3_2 (StableHlo.after hostOps3_1 (StableHlo.after hostOps3 (W14 m ρ c)))) (Proc.devRef .tc main_v75) = _
  (open Idealize.ShloMosaic.StableHlo in after_results_simp)
  rfl

theorem v76_at18 : W18 m ρ c (Proc.devRef .tc main_v76) = hid m c :=
  (W18_arr m ρ c 5).trans ((Reg3.final (V17 m ρ) c).trans (fin_congr
    (main_arg0_at17 m ρ c)
    ((v72_at17 m ρ c).trans (by rw [v61_at14 m ρ c, main_arg2_at14 m ρ c]))
    ((v73_at17 m ρ c).trans (by rw [main_arg10_at14 m ρ c]))
    ((v74_at17 m ρ c).trans (by rw [main_arg10_at14 m ρ c]))
    ((v75_at17 m ρ c).trans (by rw [main_arg11_at14 m ρ c]))))

/-! ## The readout -/

theorem v92_at19 : W19 m ρ c (Proc.devRef .tc main_v92) = Stages.means (F := Ideal) (W18 m ρ c (Proc.devRef .tc main_v76)) (W18 m ρ c (Proc.devRef .tc main_arg5)) := by
  show StableHlo.after hostOps4 (W18 m ρ c) (Proc.devRef .tc main_v92) = _
  (open Idealize.ShloMosaic.StableHlo in after_results_simp)
  rfl

theorem v87_at19 : W19 m ρ c (Proc.devRef .tc main_v87) = Stages.mask (F := Ideal) (W18 m ρ c (Proc.devRef .tc main_arg5)) := by
  show StableHlo.after hostOps4 (W18 m ρ c) (Proc.devRef .tc main_v87) = _
  (open Idealize.ShloMosaic.StableHlo in after_results_simp)
  rfl

theorem cst20_at19 : W19 m ρ c (Proc.devRef .tc main_cst_20) = constant (F := Ideal) S_ .f32 0x00000000#32 := by
  show StableHlo.after hostOps4 (W18 m ρ c) (Proc.devRef .tc main_cst_20) = _
  (open Idealize.ShloMosaic.StableHlo in after_results_simp)

theorem v93_at20 : W20 m ρ c (Proc.devRef .tc main_v93) = Stages.pick (F := Ideal) (W19 m ρ c (Proc.devRef .tc main_v87)) (W19 m ρ c (Proc.devRef .tc main_v92)) (W19 m ρ c (Proc.devRef .tc main_cst_20)) := by
  show StableHlo.after hostOps4_1 (W19 m ρ c) (Proc.devRef .tc main_v93) = _
  generalize W19 m ρ c = U
  (open Idealize.ShloMosaic.StableHlo in after_results_simp)
  rfl

/-- The result buffer after the run. -/
theorem result : W20 m ρ c (Proc.devRef .tc main_v93) = res m c :=
  (v93_at20 m ρ c).trans (by rw [v87_at19 m ρ c, v92_at19 m ρ c, cst20_at19 m ρ c, v76_at18 m ρ c, main_arg5_at18 m ρ c]; rfl)

end Cert.KernelIdeal.KValue

end
-- ==== Proof.BridgeOps.lean ====
/-
  The three layers against the reference's own operations, for arbitrary operand arrays, at the ideal values.
    input layer    Σ_k x(p,k)·W(k,q) + b(q)            is  dot_general(x, W) + the bias spread over the rows
    update layer   (c(p,q) + Σ_k m(p,k)·W(k,q)) + b(q)  is  (c + dot_general(m, W)) + the bias spread over the rows
    output layer   max((Σ_{k<133} f(p,k)·W(k,q) + Σ_{k<300} a(p,k)·W(133+k,q)) + b(q), 0)
                   is  max(dot_general([f | a], W) + bias, 0): a row of the joined array against a column of W is a sum
                   over 433 = 133 + 300 terms, the first 133 from f and the rest from a — splitting a finite sum is
                   associativity of + alone, so it holds on the extended reals with no finiteness assumed.
  The kernel's bias is the [300] vector cast to one row; the reference's is the vector spread to one row and then
  over the rows: both read b(q).
-/
import proofs.«162405_j3478923510262_2_alg».proof.Proof.RefRead
import proofs.«162405_j3478923510262_2_alg».proof.Proof.Reg0
import proofs.«162405_j3478923510262_2_alg».proof.Proof.Upd
import proofs.«162405_j3478923510262_2_alg».proof.Proof.Reg3
import proofs.«162405_j3478923510262_2_alg».proof.Proof.LibMatmulIx
import Idealize.ShloMosaic.Lib.Pipeline.Value
import Idealize.ShloMosaic.Lib.ValueIdx

noncomputable section

namespace Cert.Bridge

open Cert.ReferenceIdeal Cert.ReferenceIdeal.Gen Cert.ReferenceIdeal.ReadP Idealize.ShloMosaic Idealize.ShloMosaic.ValueIdx

/-- The kernel's bias row at (0, q). -/
theorem bias_cast (b : S300.Idx → EReal) (q : Fin 300) :
    shapeCast Cert.KernelIdeal.S1x300 b Cert.KernelIdeal.Gen.shapeCasts_S300_S1x300 (ix2 (0 : Fin 1) q) = b (ix1 q) :=
  shapeCast_apply b Cert.KernelIdeal.Gen.shapeCasts_S300_S1x300 (ix2 (0 : Fin 1) q) (ix1 q) (by
    rw [Shape.rowMajor_val_one, Shape.rowMajor_val_two]
    show q.val = 0 * 300 + q.val
    omega)

/-- The reference's bias over 200000 rows at (p, q). -/
theorem bias_host2 (b : (⟨S300, .f32⟩ : BufTy).Contents (Elt Ideal)) (p : Fin 200000) (q : Fin 300) :
    broadcastInDim S200000x300 ![0, 1] bcast_S1x300_S200000x300_0_1 (broadcastInDim S1x300 ![1] bcast_S300_S1x300_1 b) (ix2 p q) = b (ix1 q) := by
  rw [broadcastInDim_apply _ bcast_S1x300_S200000x300_0_1 _ (ix2 p q) (ix2 (0 : Fin 1) q) (fun a => by match a with | ⟨0, _⟩ => rfl | ⟨1, _⟩ => rfl)]
  exact broadcastInDim_apply _ bcast_S300_S1x300_1 b (ix2 (0 : Fin 1) q) (ix1 q) (fun a => by match a with | ⟨0, _⟩ => rfl)

/-- The reference's bias over 100000 rows at (p, q). -/
theorem bias_host1 (b : (⟨S300, .f32⟩ : BufTy).Contents (Elt Ideal)) (p : Fin 100000) (q : Fin 300) :
    broadcastInDim S100000x300 ![0, 1] bcast_S1x300_S100000x300_0_1 (broadcastInDim S1x300 ![1] bcast_S300_S1x300_1 b) (ix2 p q) = b (ix1 q) := by
  rw [broadcastInDim_apply _ bcast_S1x300_S100000x300_0_1 _ (ix2 p q) (ix2 (0 : Fin 1) q) (fun a => by match a with | ⟨0, _⟩ => rfl | ⟨1, _⟩ => rfl)]
  exact broadcastInDim_apply _ bcast_S300_S1x300_1 b (ix2 (0 : Fin 1) q) (ix1 q) (fun a => by match a with | ⟨0, _⟩ => rfl)

theorem lin_at (x : S200000x147.Idx → EReal) (w : S147x300.Idx → EReal) (b : S1x300.Idx → EReal) (p : Fin 200000) (q : Fin 300) :
    Cert.KernelIdeal.Reg0.lin x w b (ix2 p q) = (∑ k : Fin 147, x (ix2 p k) * w (ix2 k q)) + b (ix2 (0 : Fin 1) q) := rfl

theorem upd_at (g u : S200000x300.Idx → EReal) (w : S300x300.Idx → EReal) (b : S1x300.Idx → EReal) (p : Fin 200000) (q : Fin 300) :
    Cert.KernelIdeal.Upd.upd g u w b (ix2 p q) = (u (ix2 p q) + ∑ k : Fin 300, g (ix2 p k) * w (ix2 k q)) + b (ix2 (0 : Fin 1) q) := rfl

theorem fin_at (f : S100000x133.Idx → EReal) (a : S100000x300.Idx → EReal) (t : Cert.KernelIdeal.S133x300.Idx → EReal) (w : S300x300.Idx → EReal) (b : S1x300.Idx → EReal)
    (p : Fin 100000) (q : Fin 300) :
    Cert.KernelIdeal.Reg3.fin f a t w b (ix2 p q)
      = max (((∑ k : Fin 133, f (ix2 p k) * t (ix2 k q)) + ∑ k : Fin 300, a (ix2 p k) * w (ix2 k q)) + b (ix2 (0 : Fin 1) q)) (Ideal.ofBits .f32 0x00000000#32) := rfl

/-- THE INPUT LAYER is the reference's product plus its bias. -/
theorem lin_ops (x : (⟨S200000x147, .f32⟩ : BufTy).Contents (Elt Ideal)) (w : (⟨S147x300, .f32⟩ : BufTy).Contents (Elt Ideal)) (b : (⟨S300, .f32⟩ : BufTy).Contents (Elt Ideal)) :
    Cert.KernelIdeal.Reg0.lin x w (shapeCast Cert.KernelIdeal.S1x300 b Cert.KernelIdeal.Gen.shapeCasts_S300_S1x300)
      = addf (F := Ideal) (Host.dotGeneral (φ₁ := .f32) (φ₂ := .f32) dot_S200000x147_S147x300_S200000x300_1_0_0_1_n_n none x w)
          (broadcastInDim S200000x300 ![0, 1] bcast_S1x300_S200000x300_0_1 (broadcastInDim S1x300 ![1] bcast_S300_S1x300_1 b)) := by
  funext i
  obtain ⟨p, q, rfl⟩ : ∃ (p : Fin 200000) (q : Fin 300), (i : S200000x300.Idx) = ix2 p q := ⟨i 0, i 1, eq_ix2 i⟩
  rw [lin_at, bias_cast, addf_apply,
    MatmulIx.dotGeneral_ix2 (φ₁ := .f32) (φ₂ := .f32) dot_S200000x147_S147x300_S200000x300_1_0_0_1_n_n rfl rfl lhs_main_v0_0 lhs_main_v0_1 rhs_main_v0_0 rhs_main_v0_1 none x w p q,
    bias_host2 b p q]

/-- THE UPDATE LAYER is the carried array plus the reference's product, plus its bias. -/
theorem upd_ops (g u : (⟨S200000x300, .f32⟩ : BufTy).Contents (Elt Ideal)) (w : (⟨S300x300, .f32⟩ : BufTy).Contents (Elt Ideal)) (b : (⟨S300, .f32⟩ : BufTy).Contents (Elt Ideal)) :
    Cert.KernelIdeal.Upd.upd g u w (shapeCast Cert.KernelIdeal.S1x300 b Cert.KernelIdeal.Gen.shapeCasts_S300_S1x300)
      = addf (F := Ideal) (addf (F := Ideal) u (Host.dotGeneral (φ₁ := .f32) (φ₂ := .f32) dot_S200000x300_S300x300_S200000x300_1_0_0_1_n_n none g w))
          (broadcastInDim S200000x300 ![0, 1] bcast_S1x300_S200000x300_0_1 (broadcastInDim S1x300 ![1] bcast_S300_S1x300_1 b)) := by
  funext i
  obtain ⟨p, q, rfl⟩ : ∃ (p : Fin 200000) (q : Fin 300), (i : S200000x300.Idx) = ix2 p q := ⟨i 0, i 1, eq_ix2 i⟩
  rw [upd_at, bias_cast, addf_apply, addf_apply,
    MatmulIx.dotGeneral_ix2 (φ₁ := .f32) (φ₂ := .f32) dot_S200000x300_S300x300_S200000x300_1_0_0_1_n_n rfl rfl lhs_main_v28_0 lhs_main_v28_1 rhs_main_v28_0 rhs_main_v28_1 none g w p q,
    bias_host2 b p q]

/-- The top 133 rows of W, as a function of the index. -/
theorem top_fn (W : (⟨S433x300, .f32⟩ : BufTy).Contents (Elt Ideal)) :
    extractStridedSlice Cert.KernelIdeal.S133x300 ![0, 0] W Cert.KernelIdeal.Gen.slices_S433x300_S133x300_0_0
      = fun j => W (ix2 (⟨(j 0).val, by have := (j 0).isLt; show (j 0).val < 433; have h : (j 0).val < 133 := (j 0).isLt; omega⟩ : Fin 433) (⟨(j 1).val, (j 1).isLt⟩ : Fin 300)) := by
  funext j
  exact extractStridedSlice_apply _ W _ j _ (fun a => by
    match a with
    | ⟨0, _⟩ => show (j 0).val = 0 + (j 0).val; omega
    | ⟨1, _⟩ => show (j 1).val = 0 + (j 1).val; omega)

/-- The bottom 300 rows of W, as a function of the index. -/
theorem bot_fn (W : (⟨S433x300, .f32⟩ : BufTy).Contents (Elt Ideal)) :
    extractStridedSlice Cert.KernelIdeal.S300x300 ![133, 0] W Cert.KernelIdeal.Gen.slices_S433x300_S300x300_133_0
      = fun j => W (ix2 (⟨133 + (j 0).val, by show 133 + (j 0).val < 433; have h : (j 0).val < 300 := (j 0).isLt; omega⟩ : Fin 433) (⟨(j 1).val, (j 1).isLt⟩ : Fin 300)) := by
  funext j
  exact extractStridedSlice_apply _ W _ j _ (fun a => by
    match a with
    | ⟨0, _⟩ => show 133 + (j 0).val = 133 + (j 0).val; rfl
    | ⟨1, _⟩ => show (j 1).val = 0 + (j 1).val; omega)

/-- A row of the joined array [f | a] against a column of W: the first 133 terms come from f, the other 300 from a. -/
theorem cat_sum (f : (⟨S100000x133, .f32⟩ : BufTy).Contents (Elt Ideal)) (a : (⟨S100000x300, .f32⟩ : BufTy).Contents (Elt Ideal)) (W : (⟨S433x300, .f32⟩ : BufTy).Contents (Elt Ideal)) (p : Fin 100000) (q : Fin 300) :
    ∑ k : Fin 433, concatenate S100000x433 1 [⟨S100000x133, f⟩, ⟨S100000x300, a⟩] concatenates_S100000x133_S100000x300_S100000x433_d1 (ix2 p k) * W (ix2 k q)
      = (∑ k : Fin 133, f (ix2 p k) * W (ix2 (⟨k.val, by omega⟩ : Fin 433) q))
        + ∑ k : Fin 300, a (ix2 p k) * W (ix2 (⟨133 + k.val, by omega⟩ : Fin 433) q) := by
  refine (Fin.sum_univ_add (a := 133) (b := 300) (fun k : Fin (133 + 300) =>
    concatenate S100000x433 1 [⟨S100000x133, f⟩, ⟨S100000x300, a⟩] concatenates_S100000x133_S100000x300_S100000x433_d1 (ix2 p (k : Fin 433)) * W (ix2 (k : Fin 433) q))).trans ?_
  congr 1
  · refine Finset.sum_congr rfl fun k _ => ?_
    rw [concatenate_pair_apply_left (1 : Fin 2) f a concatenates_S100000x133_S100000x300_S100000x433_d1 (ix2 p (Fin.castAdd 300 k : Fin 433)) rfl (ix2 p k)
      (fun b => by match b with | ⟨0, _⟩ => rfl | ⟨1, _⟩ => rfl)]
    rfl
  · refine Finset.sum_congr rfl fun k _ => ?_
    rw [concatenate_pair_apply_right (1 : Fin 2) f a concatenates_S100000x133_S100000x300_S100000x433_d1 (ix2 p (Fin.natAdd 133 k : Fin 433)) rfl rfl (ix2 p k)
      (fun b hb => by match b with | ⟨0, _⟩ => rfl | ⟨1, _⟩ => exact absurd rfl hb)
      (by show k.val + 133 = 133 + k.val; omega)]
    rfl

/-- THE OUTPUT LAYER is the rectified product of the joined array with W, plus its bias. -/
theorem fin_ops (f : (⟨S100000x133, .f32⟩ : BufTy).Contents (Elt Ideal)) (a : (⟨S100000x300, .f32⟩ : BufTy).Contents (Elt Ideal)) (W : (⟨S433x300, .f32⟩ : BufTy).Contents (Elt Ideal)) (b : (⟨S300, .f32⟩ : BufTy).Contents (Elt Ideal)) :
    Cert.KernelIdeal.Reg3.fin f a (extractStridedSlice Cert.KernelIdeal.S133x300 ![0, 0] W Cert.KernelIdeal.Gen.slices_S433x300_S133x300_0_0)
        (extractStridedSlice Cert.KernelIdeal.S300x300 ![133, 0] W Cert.KernelIdeal.Gen.slices_S433x300_S300x300_133_0)
        (shapeCast Cert.KernelIdeal.S1x300 b Cert.KernelIdeal.Gen.shapeCasts_S300_S1x300)
      = maximumf (F := Ideal) (addf (F := Ideal)
            (Host.dotGeneral (φ₁ := .f32) (φ₂ := .f32) dot_S100000x433_S433x300_S100000x300_1_0_0_1_n_n none
              (concatenate S100000x433 1 [⟨S100000x133, f⟩, ⟨S100000x300, a⟩] concatenates_S100000x133_S100000x300_S100000x433_d1) W)
            (broadcastInDim S100000x300 ![0, 1] bcast_S1x300_S100000x300_0_1 (broadcastInDim S1x300 ![1] bcast_S300_S1x300_1 b)))
          (broadcastInDim S100000x300 ![] bcast_S_S100000x300 (constant (F := Ideal) S_ .f32 0x00000000#32)) := by
  funext i
  obtain ⟨p, q, rfl⟩ : ∃ (p : Fin 100000) (q : Fin 300), (i : S100000x300.Idx) = ix2 p q := ⟨i 0, i 1, eq_ix2 i⟩
  rw [top_fn, bot_fn, fin_at, bias_cast, maximumf_apply, addf_apply,
    MatmulIx.dotGeneral_ix2 (φ₁ := .f32) (φ₂ := .f32) dot_S100000x433_S433x300_S100000x300_1_0_0_1_n_n rfl rfl lhs_main_v72_0 lhs_main_v72_1 rhs_main_v72_0 rhs_main_v72_1 none _ W p q,
    bias_host1 b p q, cat_sum f a W p q]
  rfl

end Cert.Bridge

end
-- ==== Proof.Bridge.lean ====
/-
  The kernel's result is the reference's.  Stage by stage, for the arguments of one launch memory:
    the input layer's output is the reference's `f_bonds·W_i + b_i`;
    a round of message passing on a bond table is the reference's round on the rectified table — the kernel stores the
      table before rectification and rectifies what it gathers, the reference rectifies and then gathers, and a row
      gather reads the same element of the table either way, so max(·, 0) commutes with it entry by entry —, and the
      update layer over the messages is `(inp + msg·W_h) + b_h` on both sides;
    the output layer over the atom features and the message sums is the reference's product of the joined array
      [f_atoms | a_message] with W_o, plus b_o, rectified;
    the per-molecule mean is the same operations on both sides.
  No step needs the inputs finite.
-/
import proofs.«162405_j3478923510262_2_alg».proof.Defs
import proofs.«162405_j3478923510262_2_alg».proof.Proof.Gen.Kernel.Frame
import proofs.«162405_j3478923510262_2_alg».proof.Proof.Gen.KernelIdeal.Frame
import proofs.«162405_j3478923510262_2_alg».proof.Proof.Gen.Pre_finite_inputs
import proofs.«162405_j3478923510262_2_alg».proof.Proof.RefRead
import proofs.«162405_j3478923510262_2_alg».proof.Proof.KRun
import proofs.«162405_j3478923510262_2_alg».proof.Proof.KValue
import proofs.«162405_j3478923510262_2_alg».proof.Proof.BridgeOps

set_option maxRecDepth 16384

noncomputable section

namespace Cert.Bridge

open Cert.ReferenceIdeal.ReadP Idealize.ShloMosaic Idealize.ShloMosaic.TcCoe Idealize.SL.Sem

variable (m : (ℓ : Loc Cert.KernelIdeal.nD Cert.KernelIdeal.τ Cert.KernelIdeal.sig) → Buf (Elt Ideal) ℓ) (c : Dev Cert.KernelIdeal.nD)

/-- The input layer's output is the reference's pre-activation bond table. -/
theorem inp_eq : Cert.KernelIdeal.KValue.inp m c = val_main_v3 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  unfold Cert.KernelIdeal.KValue.inp
  exact (lin_ops _ _ _).trans rfl

/-- One round: the reference's pre-activation table after its first update. -/
theorem step1_eq : Cert.KernelIdeal.KValue.step m c (Cert.KernelIdeal.KValue.inp m c) = val_main_v32 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  unfold Cert.KernelIdeal.KValue.step
  rw [inp_eq m c]
  exact (upd_ops _ _ _ _).trans rfl

/-- Two rounds: the reference's pre-activation table after its second update. -/
theorem step2_eq : Cert.KernelIdeal.KValue.step m c (Cert.KernelIdeal.KValue.step m c (Cert.KernelIdeal.KValue.inp m c)) = val_main_v61 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  rw [step1_eq m c]
  unfold Cert.KernelIdeal.KValue.step
  rw [inp_eq m c]
  exact (upd_ops _ _ _ _).trans rfl

/-- The atoms' hidden rows are the reference's. -/
theorem hid_eq : Cert.KernelIdeal.KValue.hid m c = val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  unfold Cert.KernelIdeal.KValue.hid
  rw [step2_eq m c]
  exact (fin_ops _ _ _ _).trans rfl

/-- The molecules' mean rows are the reference's result. -/
theorem res_eq : Cert.KernelIdeal.KValue.res m c = val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  unfold Cert.KernelIdeal.KValue.res
  rw [hid_eq m c]
  rfl

end Cert.Bridge

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- At the ideal values the kernel program ends with its result array at `res` of its arguments, the reference with its
    result at its last stage of arguments that agree: one array. -/
theorem algebraic : Cert.algebraic_KernelIdeal_ReferenceIdeal := by
  intro m ρ m' ρ' _ hagree
  refine ⟨fun c => Cert.KernelIdeal.KValue.res m c, ?_, ?_⟩
  · exact (θ_run Cert.KernelIdeal.defs _ _).mono
      (fun r h c => ⟨(h c).1.trans (Cert.KernelIdeal.KValue.result m ρ c), (h c).2⟩) (Cert.KernelIdeal.Whole.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v92_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.Bridge.res_eq m c).symm

end Cert.Proof.Claims

end
-- ==== Proof.lean ====
/-
  The certificate of a message-passing network over molecular graphs: four tiled matrix-product launches (the input
  layer, two update layers, the output layer) among row gathers, neighbour sums and a per-molecule mean on the host,
  against the same network written with jnp.  The three programs run and leave their arguments as they found them; the
  idealization rewrote nothing; and at the ideal values the two results are one array (Proof/Bridge.lean says why).
-/
import proofs.«162405_j3478923510262_2_alg».proof.Defs
import proofs.«162405_j3478923510262_2_alg».proof.Proof.Gen.Kernel
import proofs.«162405_j3478923510262_2_alg».proof.Proof.Gen.Kernel.Frame
import proofs.«162405_j3478923510262_2_alg».proof.Proof.Gen.KernelIdeal
import proofs.«162405_j3478923510262_2_alg».proof.Proof.Gen.KernelIdeal.Frame
import proofs.«162405_j3478923510262_2_alg».proof.Proof.Gen.ReferenceIdeal
import proofs.«162405_j3478923510262_2_alg».proof.Proof.Gen.Pre_finite_inputs
import proofs.«162405_j3478923510262_2_alg».proof.Proof.Bridge

noncomputable section

namespace Cert.Proof

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, trivial, Cert.Proof.Claims.algebraic⟩

end Cert.Proof

end
